-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16 : Shape := ⟨2, ![131072, 16]⟩
abbrev S2x2097152 : Shape := ⟨2, ![2, 2097152]⟩
abbrev S131072 : Shape := ⟨1, ![131072]⟩
abbrev S16x16 : Shape := ⟨2, ![16, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S131072x16 : S_.BroadcastsInDim S131072x16 (![] : Fin 0 → Fin S131072x16.rank)
  reducesTo_S131072x16_S_d0_1 : S131072x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S32x64 .f32) (main_arg10 : FVec F S64 .f32) (main_arg11 : FVec F S64x128 .f32) (main_arg12 : FVec F S64x128 .f32) (main_arg13 : FVec F S128 .f32) (main_v33 : IVec S_ 1) : IVec S_ 1 :=
  let main_v34 : FVec F S32x64 .f32 := Host.absf main_arg9
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_v48 main_v49 main_v50

def fn_part1 {F : FTy → Type} [FloatOps F] (main_arg6 : FVec F S16x32 .f32) (main_arg7 : FVec F S32 .f32) (main_arg8 : FVec F S32x64 .f32) (main_arg9 : FVec F S32x64 .f32) (main_arg10 : FVec F S64 .f32) (main_arg11 : FVec F S64x128 .f32) (main_arg12 : FVec F S64x128 .f32) (main_arg13 : FVec F S128 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16x32 .f32 := Host.absf main_arg6
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S131072x16 .f32) (main_arg1 : IVec S2x2097152 32) (main_arg2 : IVec S131072 32) (main_arg3 : FVec F S16x16 .f32) (main_arg4 : FVec F S16 .f32) (main_arg5 : FVec F S16x32 .f32) (main_arg6 : FVec F S16x32 .f32) (main_arg7 : FVec F S32 .f32) (main_arg8 : FVec F S32x64 .f32) (main_arg9 : FVec F S32x64 .f32) (main_arg10 : FVec F S64 .f32) (main_arg11 : FVec F S64x128 .f32) (main_arg12 : FVec F S64x128 .f32) (main_arg13 : FVec F S128 .f32) : IVec S_ 1 :=
  let main_v0 : FVec F S131072x16 .f32 := Host.absf main_arg0
  let main_cst : FVec F S_ .f32 := constant S_ .f32 0x7F800000#32
  let main_v1 : FVec F S131072x16 .f32 := broadcastInDim S131072x16 ![] bcast_S_S131072x16 main_cst
  let main_v2 : IVec S131072x16 1 := cmpf .olt main_v0 main_v1
  let main_c : IVec S_ 1 := constantI S_ 1 1#1
  let main_v3 : IVec S_ 1 := (fun x v => Host.reduce IntOp.andi x v reducesTo_S131072x16_S_d0_1 h_S_) main_v2 main_c
  let main_v4 : FVec F S16x16 .f32 := Host.absf main_arg3
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_arg9 main_arg10 main_arg11 main_arg12 main_arg13 main_v13 main_v16
-- ==== Kernel.lean ====
abbrev S131072x16 : Shape := ⟨2, ![131072, 16]⟩
abbrev S2x2097152 : Shape := ⟨2, ![2, 2097152]⟩
abbrev S131072 : Shape := ⟨1, ![131072]⟩
abbrev S16x16 : Shape := ⟨2, ![16, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S1x2097152 : Shape := ⟨2, ![1, 2097152]⟩
abbrev S2097152 : Shape := ⟨1, ![2097152]⟩
abbrev S_ : Shape := ⟨0, ![]⟩
abbrev S2097152x1 : Shape := ⟨2, ![2097152, 1]⟩
abbrev S131072x1 : Shape := ⟨2, ![131072, 1]⟩
abbrev S1x16 : Shape := ⟨2, ![1, 16]⟩
abbrev S4096x16 : Shape := ⟨2, ![4096, 16]⟩
abbrev S2097152x16 : Shape := ⟨2, ![2097152, 16]⟩
abbrev S1x32 : Shape := ⟨2, ![1, 32]⟩
abbrev S131072x32 : Shape := ⟨2, ![131072, 32]⟩
abbrev S4096x32 : Shape := ⟨2, ![4096, 32]⟩
abbrev S2097152x32 : Shape := ⟨2, ![2097152, 32]⟩
abbrev S1x64 : Shape := ⟨2, ![1, 64]⟩
abbrev S131072x64 : Shape := ⟨2, ![131072, 64]⟩
abbrev S4096x64 : Shape := ⟨2, ![4096, 64]⟩
abbrev S2097152x64 : Shape := ⟨2, ![2097152, 64]⟩
abbrev S1x128 : Shape := ⟨2, ![1, 128]⟩
abbrev S131072x128 : Shape := ⟨2, ![131072, 128]⟩
abbrev S4096x128 : Shape := ⟨2, ![4096, 128]⟩

abbrev nBuf : Space → Nat
  | .hbm => 84
  | .vmem => 33
  | .smem => 0
  | _ => 0

abbrev bufTy : (tb : Table) → Fin (tcTables nBuf tb) → BufTy
  | .hbm, ⟨0, _⟩ => ⟨S131072x16, .f32⟩
  | .hbm, ⟨1, _⟩ => ⟨S2x2097152, .i32⟩
  | .hbm, ⟨2, _⟩ => ⟨S131072, .i32⟩
  | .hbm, ⟨3, _⟩ => ⟨S16x16, .f32⟩
  | .hbm, ⟨4, _⟩ => ⟨S16, .f32⟩
  | .hbm, ⟨5, _⟩ => ⟨S16x32, .f32⟩
  | .hbm, ⟨6, _⟩ => ⟨S16x32, .f32⟩
  | .hbm, ⟨7, _⟩ => ⟨S32, .f32⟩
  | .hbm, ⟨8, _⟩ => ⟨S32x64, .f32⟩
  | .hbm, ⟨9, _⟩ => ⟨S32x64, .f32⟩
  | .hbm, ⟨10, _⟩ => ⟨S64, .f32⟩
  | .hbm, ⟨11, _⟩ => ⟨S64x128, .f32⟩
  | .hbm, ⟨12, _⟩ => ⟨S64x128, .f32⟩
  | .hbm, ⟨13, _⟩ => ⟨S128, .f32⟩
  | .hbm, ⟨14, _⟩ => ⟨S1x2097152, .i32⟩
  | .hbm, ⟨15, _⟩ => ⟨S2097152, .i32⟩
  | .hbm, ⟨16, _⟩ => ⟨S1x2097152, .i32⟩
  | .hbm, ⟨17, _⟩ => ⟨S2097152, .i32⟩
  | .hbm, ⟨18, _⟩ => ⟨S_, .f32⟩
  | .hbm, ⟨19, _⟩ => ⟨S2097152, .f32⟩
  | .hbm, ⟨20, _⟩ => ⟨S_, .f32⟩
  | .hbm, ⟨21, _⟩ => ⟨S131072, .f32⟩
  | .hbm, ⟨22, _⟩ => ⟨S2097152x1, .i32⟩
  | .hbm, ⟨23, _⟩ => ⟨S131072, .f32⟩
  | .hbm, ⟨24, _⟩ => ⟨S_, .f32⟩
  | .hbm, ⟨25, _⟩ => ⟨S131072, .f32⟩
  | .hbm, ⟨26, _⟩ => ⟨S131072, .f32⟩
  | .hbm, ⟨27, _⟩ => ⟨S_, .f32⟩
  | .hbm, ⟨28, _⟩ => ⟨S131072, .f32⟩
  | .hbm, ⟨29, _⟩ => ⟨S131072, .f32⟩
  | .hbm, ⟨30, _⟩ => ⟨S131072x1, .f32⟩
  | .hbm, ⟨31, _⟩ => ⟨S1x16, .f32⟩
  | .hbm, ⟨32, _⟩ => ⟨S131072x16, .f32⟩
  | .hbm, ⟨33, _⟩ => ⟨S_, .i32⟩
  | .hbm, ⟨34, _⟩ => ⟨S2097152, .i32⟩
  | .hbm, ⟨35, _⟩ => ⟨S2097152, .i1⟩
  | .hbm, ⟨36, _⟩ => ⟨S_, .i32⟩
  | .hbm, ⟨37, _⟩ => ⟨S2097152, .i32⟩
  | .hbm, ⟨38, _⟩ => ⟨S2097152, .i32⟩
  | .hbm, ⟨39, _⟩ => ⟨S2097152, .i32⟩
  | .hbm, ⟨40, _⟩ => ⟨S2097152x1, .i32⟩
  | .hbm, ⟨41, _⟩ => ⟨S2097152x16, .f32⟩
  | .hbm, ⟨42, _⟩ => ⟨S_, .f32⟩
  | .hbm, ⟨43, _⟩ => ⟨S131072x16, .f32⟩
  | .hbm, ⟨44, _⟩ => ⟨S2097152x1, .i32⟩
  | .hbm, ⟨45, _⟩ => ⟨S131072x16, .f32⟩
  | .hbm, ⟨46, _⟩ => ⟨S131072x16, .f32⟩
  | .hbm, ⟨47, _⟩ => ⟨S131072x16, .f32⟩
  | .hbm, ⟨48, _⟩ => ⟨S1x32, .f32⟩
  | .hbm, ⟨49, _⟩ => ⟨S131072x32, .f32⟩
  | .hbm, ⟨50, _⟩ => ⟨S_, .i32⟩
  | .hbm, ⟨51, _⟩ => ⟨S2097152, .i32⟩
  | .hbm, ⟨52, _⟩ => ⟨S2097152, .i1⟩
  | .hbm, ⟨53, _⟩ => ⟨S_, .i32⟩
  | .hbm, ⟨54, _⟩ => ⟨S2097152, .i32⟩
  | .hbm, ⟨55, _⟩ => ⟨S2097152, .i32⟩
  | .hbm, ⟨56, _⟩ => ⟨S2097152, .i32⟩
  | .hbm, ⟨57, _⟩ => ⟨S2097152x1, .i32⟩
  | .hbm, ⟨58, _⟩ => ⟨S2097152x32, .f32⟩
  | .hbm, ⟨59, _⟩ => ⟨S_, .f32⟩
  | .hbm, ⟨60, _⟩ => ⟨S131072x32, .f32⟩
  | .hbm, ⟨61, _⟩ => ⟨S2097152x1, .i32⟩
  | .hbm, ⟨62, _⟩ => ⟨S131072x32, .f32⟩
  | .hbm, ⟨63, _⟩ => ⟨S131072x32, .f32⟩
  | .hbm, ⟨64, _⟩ => ⟨S131072x32, .f32⟩
  | .hbm, ⟨65, _⟩ => ⟨S1x64, .f32⟩
  | .hbm, ⟨66, _⟩ => ⟨S131072x64, .f32⟩
  | .hbm, ⟨67, _⟩ => ⟨S_, .i32⟩
  | .hbm, ⟨68, _⟩ => ⟨S2097152, .i32⟩
  | .hbm, ⟨69, _⟩ => ⟨S2097152, .i1⟩
  | .hbm, ⟨70, _⟩ => ⟨S_, .i32⟩
  | .hbm, ⟨71, _⟩ => ⟨S2097152, .i32⟩
  | .hbm, ⟨72, _⟩ => ⟨S2097152, .i32⟩
  | .hbm, ⟨73, _⟩ => ⟨S2097152, .i32⟩
  | .hbm, ⟨74, _⟩ => ⟨S2097152x1, .i32⟩
  | .hbm, ⟨75, _⟩ => ⟨S2097152x64, .f32⟩
  | .hbm, ⟨76, _⟩ => ⟨S_, .f32⟩
  | .hbm, ⟨77, _⟩ => ⟨S131072x64, .f32⟩
  | .hbm, ⟨78, _⟩ => ⟨S2097152x1, .i32⟩
  | .hbm, ⟨79, _⟩ => ⟨S131072x64, .f32⟩
  | .hbm, ⟨80, _⟩ => ⟨S131072x64, .f32⟩
  | .hbm, ⟨81, _⟩ => ⟨S131072x64, .f32⟩
  | .hbm, ⟨82, _⟩ => ⟨S1x128, .f32⟩
  | .hbm, ⟨83, _⟩ => ⟨S131072x128, .f32⟩
  | .local _ .vmem, ⟨0, _⟩ => ⟨S4096x16, .f32⟩
  | .local _ .vmem, ⟨1, _⟩ => ⟨S4096x16, .f32⟩
  | .local _ .vmem, ⟨2, _⟩ => ⟨S16x16, .f32⟩
  | .local _ .vmem, ⟨3, _⟩ => ⟨S1x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S16x32, .f32⟩
  | .local _ .vmem, ⟨11, _⟩ => ⟨S16x32, .f32⟩
  | .local _ .vmem, ⟨12, _⟩ => ⟨S1x32, .f32⟩
  | .local _ .vmem, ⟨13, _⟩ => ⟨S4096x32, .f32⟩
  | .local _ .vmem, ⟨14, _⟩ => ⟨S4096x32, .f32⟩
  | .local _ .vmem, ⟨15, _⟩ => ⟨S4096x32, .f32⟩
  | .local _ .vmem, ⟨16, _⟩ => ⟨S4096x32, .f32⟩
  | .local _ .vmem, ⟨17, _⟩ => ⟨S4096x32, .f32⟩
  | .local _ .vmem, ⟨18, _⟩ => ⟨S4096x32, .f32⟩
  | .local _ .vmem, ⟨19, _⟩ => ⟨S32x64, .f32⟩
  | .local _ .vmem, ⟨20, _⟩ => ⟨S32x64, .f32⟩
  | .local _ .vmem, ⟨21, _⟩ => ⟨S1x64, .f32⟩
  | .local _ .vmem, ⟨22, _⟩ => ⟨S4096x64, .f32⟩
  | .local _ .vmem, ⟨23, _⟩ => ⟨S4096x64, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S4096x64, .f32⟩
  | .local _ .vmem, ⟨28, _⟩ => ⟨S64x128, .f32⟩
  | .local _ .vmem, ⟨29, _⟩ => ⟨S64x128, .f32⟩
  | .local _ .vmem, ⟨30, _⟩ => ⟨S1x128, .f32⟩
  | .local _ .vmem, ⟨31, _⟩ => ⟨S4096x128, .f32⟩
  | .local _ .vmem, ⟨32, _⟩ => ⟨S4096x128, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  shapeCasts_S16_S1x16 : S16.ShapeCasts S1x16
  inb_S4096x16_S4096x16_0_0 : ∀ a, (![0, 0] : Fin 2 → Nat) a + S4096x16.size a ≤ S4096x16.size a
  h_S4096x16 : 0 < S4096x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  bcast_S_S131072x16 : S_.BroadcastsInDim S131072x16 (![] : Fin 0 → Fin S131072x16.rank)
  bcast_S131072x1_S131072x16_0_1 : S131072x1.BroadcastsInDim S131072x16 (![0, 1] : Fin 2 → Fin S131072x16.rank)
  shapeCasts_S32_S1x32 : S32.ShapeCasts S1x32
  shapeCasts_S4096x16_S4096x16 : S4096x16.ShapeCasts S4096x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  bcast_S_S131072x32 : S_.BroadcastsInDim S131072x32 (![] : Fin 0 → Fin S131072x32.rank)
  bcast_S131072x1_S131072x32_0_1 : S131072x1.BroadcastsInDim S131072x32 (![0, 1] : Fin 2 → Fin S131072x32.rank)
  shapeCasts_S64_S1x64 : S64.ShapeCasts S1x64
  shapeCasts_S4096x32_S4096x32 : S4096x32.ShapeCasts S4096x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  bcast_S_S131072x64 : S_.BroadcastsInDim S131072x64 (![] : Fin 0 → Fin S131072x64.rank)
  bcast_S131072x1_S131072x64_0_1 : S131072x1.BroadcastsInDim S131072x64 (![0, 1] : Fin 2 → Fin S131072x64.rank)
  shapeCasts_S128_S1x128 : S128.ShapeCasts S1x128
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  scatter_S131072_S2097152x1_S2097152_n_0_0_1_wf : ScatterDims.WF S131072 S2097152x1 S2097152 [] [0] [0] 1
  dot_S4096x16_S16x16_S4096x16_1_0_0_1_n_n_wf : DotDims.WF S4096x16 S16x16 S4096x16 [1] [0] [0] [1] [] []
  gather_S131072x16_S2097152x1_S2097152x16_1_0_n_n_0_1_116_wf : GatherDims.WF S131072x16 S2097152x1 S2097152x16 [1] [0] [] [0] [] 1 ![1, 16]
  scatter_S131072x16_S2097152x1_S2097152x16_1_0_0_1_wf : ScatterDims.WF S131072x16 S2097152x1 S2097152x16 [1] [0] [0] 1
  dot_S4096x16_S16x32_S4096x32_1_0_0_1_n_n_wf : DotDims.WF S4096x16 S16x32 S4096x32 [1] [0] [0] [1] [] []
  gather_S131072x32_S2097152x1_S2097152x32_1_0_n_n_0_1_132_wf : GatherDims.WF S131072x32 S2097152x1 S2097152x32 [1] [0] [] [0] [] 1 ![1, 32]
  scatter_S131072x32_S2097152x1_S2097152x32_1_0_0_1_wf : ScatterDims.WF S131072x32 S2097152x1 S2097152x32 [1] [0] [0] 1
  dot_S4096x32_S32x64_S4096x64_1_0_0_1_n_n_wf : DotDims.WF S4096x32 S32x64 S4096x64 [1] [0] [0] [1] [] []
  gather_S131072x64_S2097152x1_S2097152x64_1_0_n_n_0_1_164_wf : GatherDims.WF S131072x64 S2097152x1 S2097152x64 [1] [0] [] [0] [] 1 ![1, 64]
  scatter_S131072x64_S2097152x1_S2097152x64_1_0_0_1_wf : ScatterDims.WF S131072x64 S2097152x1 S2097152x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S131072x16.size a
  hwx0_0 : ∀ i : grid0.Coords, EltTy.bits .f32 = 32 ∨ (Rect.block (s := S131072x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S131072x16.size a
  hwx0_3 : ∀ i : grid0.Coords, EltTy.bits .f32 = 32 ∨ (Rect.block (s := S131072x16) S4096x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S131072x16.size a
  hwx1_0 : ∀ i : grid1.Coords, EltTy.bits .f32 = 32 ∨ (Rect.block (s := S131072x16) S4096x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x16.size a ≤ S131072x16.size a
  hwx1_1 : ∀ i : grid1.Coords, EltTy.bits .f32 = 32 ∨ (Rect.block (s := S131072x16) S4096x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x32.size a ≤ S131072x32.size a
  hwx1_5 : ∀ i : grid1.Coords, EltTy.bits .f32 = 32 ∨ (Rect.block (s := S131072x32) S4096x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x32.size a ≤ S131072x32.size a
  hwx2_0 : ∀ i : grid2.Coords, EltTy.bits .f32 = 32 ∨ (Rect.block (s := S131072x32) S4096x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x32.size a ≤ S131072x32.size a
  hwx2_1 : ∀ i : grid2.Coords, EltTy.bits .f32 = 32 ∨ (Rect.block (s := S131072x32) S4096x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x64.size a ≤ S131072x64.size a
  hwx2_5 : ∀ i : grid2.Coords, EltTy.bits .f32 = 32 ∨ (Rect.block (s := S131072x64) S4096x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S131072x64.size a
  hwx3_0 : ∀ i : grid3.Coords, EltTy.bits .f32 = 32 ∨ (Rect.block (s := S131072x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S131072x64.size a
  hwx3_1 : ∀ i : grid3.Coords, EltTy.bits .f32 = 32 ∨ (Rect.block (s := S131072x64) S4096x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x128.size a ≤ S131072x128.size a
  hwx3_5 : ∀ i : grid3.Coords, EltTy.bits .f32 = 32 ∨ (Rect.block (s := S131072x128) S4096x128.size (cc3_transform_5 i) (hinb3_5 i)).WholeWords (EltTy.packing .f32)

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def gather_S131072x16_S2097152x1_S2097152x16_1_0_n_n_0_1_116 : GatherDims S131072x16 S2097152x1 S2097152x16 where
  offsetDims := [1]
  collapsedSliceDims := [0]
  operandBatchingDims := []
  startIndicesBatchingDims := []
  startIndexMap := [0]
  indexVectorDim := 1
  sliceSizes := ![1, 16]
  wf := gather_S131072x16_S2097152x1_S2097152x16_1_0_n_n_0_1_116_wf
def scatter_S131072x16_S2097152x1_S2097152x16_1_0_0_1 : ScatterDims S131072x16 S2097152x1 S2097152x16 where
  updateWindowDims := [1]
  insertedWindowDims := [0]
  scatterDimsToOperandDims := [0]
  indexVectorDim := 1
  wf := scatter_S131072x16_S2097152x1_S2097152x16_1_0_0_1_wf
def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def gather_S131072x32_S2097152x1_S2097152x32_1_0_n_n_0_1_132 : GatherDims S131072x32 S2097152x1 S2097152x32 where
  offsetDims := [1]
  collapsedSliceDims := [0]
  operandBatchingDims := []
  startIndicesBatchingDims := []
  startIndexMap := [0]
  indexVectorDim := 1
  sliceSizes := ![1, 32]
  wf := gather_S131072x32_S2097152x1_S2097152x32_1_0_n_n_0_1_132_wf
def scatter_S131072x32_S2097152x1_S2097152x32_1_0_0_1 : ScatterDims S131072x32 S2097152x1 S2097152x32 where
  updateWindowDims := [1]
  insertedWindowDims := [0]
  scatterDimsToOperandDims := [0]
  indexVectorDim := 1
  wf := scatter_S131072x32_S2097152x1_S2097152x32_1_0_0_1_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def gather_S131072x64_S2097152x1_S2097152x64_1_0_n_n_0_1_164 : GatherDims S131072x64 S2097152x1 S2097152x64 where
  offsetDims := [1]
  collapsedSliceDims := [0]
  operandBatchingDims := []
  startIndicesBatchingDims := []
  startIndexMap := [0]
  indexVectorDim := 1
  sliceSizes := ![1, 64]
  wf := gather_S131072x64_S2097152x1_S2097152x64_1_0_n_n_0_1_164_wf
def scatter_S131072x64_S2097152x1_S2097152x64_1_0_0_1 : ScatterDims S131072x64 S2097152x1 S2097152x64 where
  updateWindowDims := [1]
  insertedWindowDims := [0]
  scatterDimsToOperandDims := [0]
  indexVectorDim := 1
  wf := scatter_S131072x64_S2097152x1_S2097152x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4096x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S4096x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S4096x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S4096x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S4096x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S4096x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S131072x16 : Shape := ⟨2, ![131072, 16]⟩
abbrev S2x2097152 : Shape := ⟨2, ![2, 2097152]⟩
abbrev S131072 : Shape := ⟨1, ![131072]⟩
abbrev S16x16 : Shape := ⟨2, ![16, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S1x16 : Shape := ⟨2, ![1, 16]⟩
abbrev S1x2097152 : Shape := ⟨2, ![1, 2097152]⟩
abbrev S2097152 : Shape := ⟨1, ![2097152]⟩
abbrev S_ : Shape := ⟨0, ![]⟩
abbrev S2097152x1 : Shape := ⟨2, ![2097152, 1]⟩
abbrev S2097152x16 : Shape := ⟨2, ![2097152, 16]⟩
abbrev S131072x1 : Shape := ⟨2, ![131072, 1]⟩
abbrev S131072x32 : Shape := ⟨2, ![131072, 32]⟩
abbrev S1x32 : Shape := ⟨2, ![1, 32]⟩
abbrev S2097152x32 : Shape := ⟨2, ![2097152, 32]⟩
abbrev S131072x64 : Shape := ⟨2, ![131072, 64]⟩
abbrev S1x64 : Shape := ⟨2, ![1, 64]⟩
abbrev S2097152x64 : Shape := ⟨2, ![2097152, 64]⟩
abbrev S131072x128 : Shape := ⟨2, ![131072, 128]⟩
abbrev S1x128 : Shape := ⟨2, ![1, 128]⟩

abbrev nBuf : Space → Nat
  | .hbm => 137
  | .vmem => 0
  | .smem => 0
  | _ => 0

abbrev hbmTy0_0 (i : Nat) : BufTy := match i % 128 with
  | 0 => ⟨S131072x16, .f32⟩
  | 1 => ⟨S2x2097152, .i32⟩
  | 2 => ⟨S131072, .i32⟩
  | 3 => ⟨S16x16, .f32⟩
  | 4 => ⟨S16, .f32⟩
  | 5 => ⟨S16x32, .f32⟩
  | 6 => ⟨S16x32, .f32⟩
  | 7 => ⟨S32, .f32⟩
  | 8 => ⟨S32x64, .f32⟩
  | 9 => ⟨S32x64, .f32⟩
  | 10 => ⟨S64, .f32⟩
  | 11 => ⟨S64x128, .f32⟩
  | 12 => ⟨S64x128, .f32⟩
  | 13 => ⟨S128, .f32⟩
  | 14 => ⟨S131072x16, .f32⟩
  | 15 => ⟨S1x16, .f32⟩
  | 16 => ⟨S131072x16, .f32⟩
  | 17 => ⟨S131072x16, .f32⟩
  | 18 => ⟨S1x2097152, .i32⟩
  | 19 => ⟨S2097152, .i32⟩
  | 20 => ⟨S1x2097152, .i32⟩
  | 21 => ⟨S2097152, .i32⟩
  | 22 => ⟨S_, .i32⟩
  | 23 => ⟨S2097152, .i32⟩
  | 24 => ⟨S2097152, .i1⟩
  | 25 => ⟨S_, .i32⟩
  | 26 => ⟨S2097152, .i32⟩
  | 27 => ⟨S2097152, .i32⟩
  | 28 => ⟨S2097152, .i32⟩
  | 29 => ⟨S2097152x1, .i32⟩
  | 30 => ⟨S2097152x16, .f32⟩
  | 31 => ⟨S_, .f32⟩
  | 32 => ⟨S131072x16, .f32⟩
  | 33 => ⟨S2097152x1, .i32⟩
  | 34 => ⟨S131072x16, .f32⟩
  | 35 => ⟨S_, .f32⟩
  | 36 => ⟨S2097152, .f32⟩
  | 37 => ⟨S_, .f32⟩
  | 38 => ⟨S131072, .f32⟩
  | 39 => ⟨S2097152x1, .i32⟩
  | 40 => ⟨S131072, .f32⟩
  | 41 => ⟨S_, .f32⟩
  | 42 => ⟨S131072, .f32⟩
  | 43 => ⟨S131072, .f32⟩
  | 44 => ⟨S131072x1, .f32⟩
  | 45 => ⟨S131072x16, .f32⟩
  | 46 => ⟨S131072x16, .f32⟩
  | 47 => ⟨S131072x32, .f32⟩
  | 48 => ⟨S131072x32, .f32⟩
  | 49 => ⟨S131072x32, .f32⟩
  | 50 => ⟨S1x32, .f32⟩
  | 51 => ⟨S131072x32, .f32⟩
  | 52 => ⟨S131072x32, .f32⟩
  | 53 => ⟨S_, .f32⟩
  | 54 => ⟨S131072x32, .f32⟩
  | 55 => ⟨S131072x32, .f32⟩
  | 56 => ⟨S1x2097152, .i32⟩
  | 57 => ⟨S2097152, .i32⟩
  | 58 => ⟨S1x2097152, .i32⟩
  | 59 => ⟨S2097152, .i32⟩
  | 60 => ⟨S_, .i32⟩
  | 61 => ⟨S2097152, .i32⟩
  | 62 => ⟨S2097152, .i1⟩
  | 63 => ⟨S_, .i32⟩
  | 64 => ⟨S2097152, .i32⟩
  | 65 => ⟨S2097152, .i32⟩
  | 66 => ⟨S2097152, .i32⟩
  | 67 => ⟨S2097152x1, .i32⟩
  | 68 => ⟨S2097152x32, .f32⟩
  | 69 => ⟨S_, .f32⟩
  | 70 => ⟨S131072x32, .f32⟩
  | 71 => ⟨S2097152x1, .i32⟩
  | 72 => ⟨S131072x32, .f32⟩
  | 73 => ⟨S_, .f32⟩
  | 74 => ⟨S2097152, .f32⟩
  | 75 => ⟨S_, .f32⟩
  | 76 => ⟨S131072, .f32⟩
  | 77 => ⟨S2097152x1, .i32⟩
  | 78 => ⟨S131072, .f32⟩
  | 79 => ⟨S_, .f32⟩
  | 80 => ⟨S131072, .f32⟩
  | 81 => ⟨S131072, .f32⟩
  | 82 => ⟨S131072x1, .f32⟩
  | 83 => ⟨S131072x32, .f32⟩
  | 84 => ⟨S131072x32, .f32⟩
  | 85 => ⟨S131072x64, .f32⟩
  | 86 => ⟨S131072x64, .f32⟩
  | 87 => ⟨S131072x64, .f32⟩
  | 88 => ⟨S1x64, .f32⟩
  | 89 => ⟨S131072x64, .f32⟩
  | 90 => ⟨S131072x64, .f32⟩
  | 91 => ⟨S_, .f32⟩
  | 92 => ⟨S131072x64, .f32⟩
  | 93 => ⟨S131072x64, .f32⟩
  | 94 => ⟨S1x2097152, .i32⟩
  | 95 => ⟨S2097152, .i32⟩
  | 96 => ⟨S1x2097152, .i32⟩
  | 97 => ⟨S2097152, .i32⟩
  | 98 => ⟨S_, .i32⟩
  | 99 => ⟨S2097152, .i32⟩
  | 100 => ⟨S2097152, .i1⟩
  | 101 => ⟨S_, .i32⟩
  | 102 => ⟨S2097152, .i32⟩
  | 103 => ⟨S2097152, .i32⟩
  | 104 => ⟨S2097152, .i32⟩
  | 105 => ⟨S2097152x1, .i32⟩
  | 106 => ⟨S2097152x64, .f32⟩
  | 107 => ⟨S_, .f32⟩
  | 108 => ⟨S131072x64, .f32⟩
  | 109 => ⟨S2097152x1, .i32⟩
  | 110 => ⟨S131072x64, .f32⟩
  | 111 => ⟨S_, .f32⟩
  | 112 => ⟨S2097152, .f32⟩
  | 113 => ⟨S_, .f32⟩
  | 114 => ⟨S131072, .f32⟩
  | 115 => ⟨S2097152x1, .i32⟩
  | 116 => ⟨S131072, .f32⟩
  | 117 => ⟨S_, .f32⟩
  | 118 => ⟨S131072, .f32⟩
  | 119 => ⟨S131072, .f32⟩
  | 120 => ⟨S131072x1, .f32⟩
  | 121 => ⟨S131072x64, .f32⟩
  | 122 => ⟨S131072x64, .f32⟩
  | 123 => ⟨S131072x128, .f32⟩
  | 124 => ⟨S131072x128, .f32⟩
  | 125 => ⟨S131072x128, .f32⟩
  | 126 => ⟨S1x128, .f32⟩
  | 127 => ⟨S131072x128, .f32⟩
  | _ => ⟨S131072x16, .f32⟩

abbrev hbmTy0_1 (i : Nat) : BufTy := match i % 128 with
  | 0 => ⟨S131072x128, .f32⟩
  | 1 => ⟨S131072x128, .f32⟩
  | 2 => ⟨S131072x128, .f32⟩
  | 3 => ⟨S_, .f32⟩
  | 4 => ⟨S131072x128, .f32⟩
  | 5 => ⟨S131072x128, .f32⟩
  | 6 => ⟨S_, .f32⟩
  | 7 => ⟨S131072x128, .f32⟩
  | 8 => ⟨S131072x128, .f32⟩
  | _ => ⟨S131072x16, .f32⟩

abbrev hbmTy (i : Nat) : BufTy := match i / 128 with
  | 0 => hbmTy0_0 i
  | 1 => hbmTy0_1 i
  | _ => ⟨S131072x16, .f32⟩

abbrev bufTy : (tb : Table) → Fin (tcTables nBuf tb) → BufTy
  | .hbm, ⟨i, _⟩ => hbmTy i
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call1_cst : Ref sig .tc := ⟨.hbm, 91, rfl⟩
abbrev main_call1_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_10 : Ref sig .tc := ⟨.hbm, 98, rfl⟩
abbrev main_v68 : Ref sig .tc := ⟨.hbm, 99, rfl⟩
abbrev main_v69 : Ref sig .tc := ⟨.hbm, 100, rfl⟩
abbrev main_c_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_v96 : Ref sig .tc := ⟨.hbm, 133, rfl⟩
abbrev main_cst_17 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S131072x16 : S_.BroadcastsInDim S131072x16 (![] : Fin 0 → Fin S131072x16.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x16_0_1 : S131072x1.BroadcastsInDim S131072x16 (![0, 1] : Fin 2 → Fin S131072x16.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S131072x1_S131072x32_0_1 : S131072x1.BroadcastsInDim S131072x32 (![0, 1] : Fin 2 → Fin S131072x32.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S131072x1_S131072x64_0_1 : S131072x1.BroadcastsInDim S131072x64 (![0, 1] : Fin 2 → Fin S131072x64.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x16_S16x16_S131072x16_1_0_0_1_n_n_wf : DotDims.WF S131072x16 S16x16 S131072x16 [1] [0] [0] [1] [] []
  gather_S131072x16_S2097152x1_S2097152x16_1_0_n_n_0_1_116_wf : GatherDims.WF S131072x16 S2097152x1 S2097152x16 [1] [0] [] [0] [] 1 ![1, 16]
  scatter_S131072x16_S2097152x1_S2097152x16_1_0_0_1_wf : ScatterDims.WF S131072x16 S2097152x1 S2097152x16 [1] [0] [0] 1
  scatter_S131072_S2097152x1_S2097152_n_0_0_1_wf : ScatterDims.WF S131072 S2097152x1 S2097152 [] [0] [0] 1
  dot_S131072x16_S16x32_S131072x32_1_0_0_1_n_n_wf : DotDims.WF S131072x16 S16x32 S131072x32 [1] [0] [0] [1] [] []
  gather_S131072x32_S2097152x1_S2097152x32_1_0_n_n_0_1_132_wf : GatherDims.WF S131072x32 S2097152x1 S2097152x32 [1] [0] [] [0] [] 1 ![1, 32]
  scatter_S131072x32_S2097152x1_S2097152x32_1_0_0_1_wf : ScatterDims.WF S131072x32 S2097152x1 S2097152x32 [1] [0] [0] 1
  dot_S131072x32_S32x64_S131072x64_1_0_0_1_n_n_wf : DotDims.WF S131072x32 S32x64 S131072x64 [1] [0] [0] [1] [] []
  gather_S131072x64_S2097152x1_S2097152x64_1_0_n_n_0_1_164_wf : GatherDims.WF S131072x64 S2097152x1 S2097152x64 [1] [0] [] [0] [] 1 ![1, 64]
  scatter_S131072x64_S2097152x1_S2097152x64_1_0_0_1_wf : ScatterDims.WF S131072x64 S2097152x1 S2097152x64 [1] [0] [0] 1
  dot_S131072x64_S64x128_S131072x128_1_0_0_1_n_n_wf : DotDims.WF S131072x64 S64x128 S131072x128 [1] [0] [0] [1] [] []

variable [Facts₀]

def dot_S131072x16_S16x16_S131072x16_1_0_0_1_n_n : DotDims S131072x16 S16x16 S131072x16 where
  lhsContracting := [1]
  rhsContracting := [0]
  lhsNonContracting := [0]
  rhsNonContracting := [1]
  lhsBatch := []
  rhsBatch := []
  wf := dot_S131072x16_S16x16_S131072x16_1_0_0_1_n_n_wf
def gather_S131072x16_S2097152x1_S2097152x16_1_0_n_n_0_1_116 : GatherDims S131072x16 S2097152x1 S2097152x16 where
  offsetDims := [1]
  collapsedSliceDims := [0]
  operandBatchingDims := []
  startIndicesBatchingDims := []
  startIndexMap := [0]
  indexVectorDim := 1
  sliceSizes := ![1, 16]
  wf := gather_S131072x16_S2097152x1_S2097152x16_1_0_n_n_0_1_116_wf
def scatter_S131072x16_S2097152x1_S2097152x16_1_0_0_1 : ScatterDims S131072x16 S2097152x1 S2097152x16 where
  updateWindowDims := [1]
  insertedWindowDims := [0]
  scatterDimsToOperandDims := [0]
  indexVectorDim := 1
  wf := scatter_S131072x16_S2097152x1_S2097152x16_1_0_0_1_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def dot_S131072x16_S16x32_S131072x32_1_0_0_1_n_n : DotDims S131072x16 S16x32 S131072x32 where
  lhsContracting := [1]
  rhsContracting := [0]
  lhsNonContracting := [0]
  rhsNonContracting := [1]
  lhsBatch := []
  rhsBatch := []
  wf := dot_S131072x16_S16x32_S131072x32_1_0_0_1_n_n_wf
def gather_S131072x32_S2097152x1_S2097152x32_1_0_n_n_0_1_132 : GatherDims S131072x32 S2097152x1 S2097152x32 where
  offsetDims := [1]
  collapsedSliceDims := [0]
  operandBatchingDims := []
  startIndicesBatchingDims := []
  startIndexMap := [0]
  indexVectorDim := 1
  sliceSizes := ![1, 32]
  wf := gather_S131072x32_S2097152x1_S2097152x32_1_0_n_n_0_1_132_wf
def scatter_S131072x32_S2097152x1_S2097152x32_1_0_0_1 : ScatterDims S131072x32 S2097152x1 S2097152x32 where
  updateWindowDims := [1]
  insertedWindowDims := [0]
  scatterDimsToOperandDims := [0]
  indexVectorDim := 1
  wf := scatter_S131072x32_S2097152x1_S2097152x32_1_0_0_1_wf
def dot_S131072x32_S32x64_S131072x64_1_0_0_1_n_n : DotDims S131072x32 S32x64 S131072x64 where
  lhsContracting := [1]
  rhsContracting := [0]
  lhsNonContracting := [0]
  rhsNonContracting := [1]
  lhsBatch := []
  rhsBatch := []
  wf := dot_S131072x32_S32x64_S131072x64_1_0_0_1_n_n_wf
def gather_S131072x64_S2097152x1_S2097152x64_1_0_n_n_0_1_164 : GatherDims S131072x64 S2097152x1 S2097152x64 where
  offsetDims := [1]
  collapsedSliceDims := [0]
  operandBatchingDims := []
  startIndicesBatchingDims := []
  startIndexMap := [0]
  indexVectorDim := 1
  sliceSizes := ![1, 64]
  wf := gather_S131072x64_S2097152x1_S2097152x64_1_0_n_n_0_1_164_wf
def scatter_S131072x64_S2097152x1_S2097152x64_1_0_0_1 : ScatterDims S131072x64 S2097152x1 S2097152x64 where
  updateWindowDims := [1]
  insertedWindowDims := [0]
  scatterDimsToOperandDims := [0]
  indexVectorDim := 1
  wf := scatter_S131072x64_S2097152x1_S2097152x64_1_0_0_1_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf

class Facts : Prop extends Facts₀ where

variable [Facts]
-- ==== Proof.KernelRun.lean ====
/-
  The idealized kernel's run with its result named.

  Every weakly fair execution of the whole program — four stretches of host operations, each followed by one Pallas
  call — terminates without a fault, and in its final state the result buffer holds what the fold of the segments leaves
  there: the contents at the last segment boundary, read at the result buffer. The argument arrays end as launched.
  The launch is made exactly as for the statement that keeps only the arguments: the segments, their chain, the first
  and last thread states are those of that statement; one more buffer is read off the last boundary's contents.
-/
import proofs.«107801_j1898375544952_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_named : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Whole

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«107801_j1898375544952_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibDenseLayer.lean ====
/-
  The layers of a graph network, read one entry at a time, at the ideal values.

  A layer takes the node features H (one row per node) and the aggregated neighbour features A (one row per node) and
  returns, at node p and output channel e,

      act ( Σ_k H(p, k) · Ws(k, e)  +  Σ_k A(p, k) · Wn(k, e)  +  b(e) ),

  `pre` being the argument of the activation. The first layer has no neighbour term: `lin`. Both programs compute
  exactly this, entry by entry: a kernel's body on a tile of rows (two matrix products into zero accumulators of the
  tile's rows after a change of float format, which changes nothing here, and the bias row spread over the tile's rows)
  and the host's operations on all rows at once (two `dot_general`s and the bias broadcast in two steps). The
  rectifier is a maximum with zero in both spellings. The logistic function is by definition 1 / (1 + exp (-x)) on the
  extended reals, which is the expression the host spells out. Last, the mean over the neighbours: the sum S(p, ·)
  times the reciprocal 1 / max(d(p), 1) is the quotient S(p, ·) / max(d(p), 1), because max(d(p), 1) ≥ 1 is not zero
  (at a zero divisor the two differ; nowhere else, the infinities included).
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import proofs.«107801_j1898375544952_1_alg».proof.Proof.LibPlainMatmul
import proofs.«107801_j1898375544952_1_alg».proof.Proof.LibPlainDot
import proofs.«107801_j1898375544952_1_alg».proof.Proof.LibRowBroadcast

noncomputable section

namespace Cert.Gcn

open Idealize.ShloMosaic Idealize.ShloMosaic.ValueIdx

/-- The argument of a layer's activation at node `p`, channel `e`: the node's own row through the self weights, its
    aggregated neighbours' row through the neighbour weights, and the bias. -/
def pre {A K B : ℕ} (h a : (⟨2, ![A, K]⟩ : Shape).Idx → EReal) (ws wn : (⟨2, ![K, B]⟩ : Shape).Idx → EReal)
    (b : Fin B → EReal) (p : Fin A) (e : Fin B) : EReal :=
  (∑ k : Fin K, h (ix2 p k) * ws (ix2 k e) + ∑ k : Fin K, a (ix2 p k) * wn (ix2 k e)) + b e

/-- The first, purely linear layer at node `p`, channel `e`. -/
def lin {A K B : ℕ} (x : (⟨2, ![A, K]⟩ : Shape).Idx → EReal) (w : (⟨2, ![K, B]⟩ : Shape).Idx → EReal)
    (b : Fin B → EReal) (p : Fin A) (e : Fin B) : EReal :=
  (∑ k : Fin K, x (ix2 p k) * w (ix2 k e)) + b e

/-! ## A kernel's body on a tile of rows -/

/-- The linear kernel's body: one product of the tile with the weights, plus the bias row on every row. -/
theorem kernel_lin_apply {T K B : ℕ} (D : DotDims ⟨2, ![T, K]⟩ ⟨2, ![K, B]⟩ ⟨2, ![T, B]⟩) (hD : D = DotDims.plain T K B)
    (x : FVec Ideal ⟨2, ![T, K]⟩ .f32) (w : FVec Ideal ⟨2, ![K, B]⟩ .f32) (bv : FVec Ideal ⟨2, ![1, B]⟩ .f32)
    (hbv : (⟨2, ![1, B]⟩ : Shape).ShapeCasts ⟨2, ![1, B]⟩) (hbc : (⟨2, ![1, B]⟩ : Shape).Broadcasts ⟨2, ![T, B]⟩)
    (hlt : FTy.bf16.bits < FTy.f32.bits) (p : Fin T) (e : Fin B) :
    addf (matmul D none (truncf .bf16 x hlt) (truncf .bf16 w hlt) (constant ⟨2, ![T, B]⟩ .f32 0x00000000#32))
        (broadcastTo ⟨2, ![T, B]⟩ (shapeCast ⟨2, ![1, B]⟩ bv hbv) hbc) (ix2 p e)
      = lin x w (fun e => bv (ix2 0 e)) p e := by
  subst hD
  have hm : matmul (DotDims.plain T K B) none (truncf .bf16 x hlt) (truncf .bf16 w hlt) (constant ⟨2, ![T, B]⟩ .f32 0x00000000#32) (ix2 p e)
      = ∑ k : Fin K, x (ix2 p k) * w (ix2 k e) := matmul_plain_zero_apply T K B none (truncf .bf16 x hlt) (truncf .bf16 w hlt) p e
  rw [addf_apply, shapeCast_self, LibRowBroadcast.broadcastTo_1b_ab_apply bv hbc p e 0, hm]
  rfl

/-- A dense kernel's body before its activation: the tile of own features and the tile of aggregated features, each
    through its weights, summed, plus the bias row on every row. -/
theorem kernel_pre_apply {T K B : ℕ} (D : DotDims ⟨2, ![T, K]⟩ ⟨2, ![K, B]⟩ ⟨2, ![T, B]⟩) (hD : D = DotDims.plain T K B)
    (x a : FVec Ideal ⟨2, ![T, K]⟩ .f32) (ws wn : FVec Ideal ⟨2, ![K, B]⟩ .f32) (bv : FVec Ideal ⟨2, ![1, B]⟩ .f32)
    (hx : (⟨2, ![T, K]⟩ : Shape).ShapeCasts ⟨2, ![T, K]⟩) (hbv : (⟨2, ![1, B]⟩ : Shape).ShapeCasts ⟨2, ![1, B]⟩)
    (hbc : (⟨2, ![1, B]⟩ : Shape).Broadcasts ⟨2, ![T, B]⟩) (hlt : FTy.bf16.bits < FTy.f32.bits) (p : Fin T) (e : Fin B) :
    addf (addf (matmul D none (truncf .bf16 (shapeCast ⟨2, ![T, K]⟩ x hx) hlt) (truncf .bf16 ws hlt) (constant ⟨2, ![T, B]⟩ .f32 0x00000000#32))
          (matmul D none (truncf .bf16 (shapeCast ⟨2, ![T, K]⟩ a hx) hlt) (truncf .bf16 wn hlt) (constant ⟨2, ![T, B]⟩ .f32 0x00000000#32)))
        (broadcastTo ⟨2, ![T, B]⟩ (shapeCast ⟨2, ![1, B]⟩ bv hbv) hbc) (ix2 p e)
      = pre x a ws wn (fun e => bv (ix2 0 e)) p e := by
  subst hD
  have hs : matmul (DotDims.plain T K B) none (truncf .bf16 x hlt) (truncf .bf16 ws hlt) (constant ⟨2, ![T, B]⟩ .f32 0x00000000#32) (ix2 p e)
      = ∑ k : Fin K, x (ix2 p k) * ws (ix2 k e) := matmul_plain_zero_apply T K B none (truncf .bf16 x hlt) (truncf .bf16 ws hlt) p e
  have hn : matmul (DotDims.plain T K B) none (truncf .bf16 a hlt) (truncf .bf16 wn hlt) (constant ⟨2, ![T, B]⟩ .f32 0x00000000#32) (ix2 p e)
      = ∑ k : Fin K, a (ix2 p k) * wn (ix2 k e) := matmul_plain_zero_apply T K B none (truncf .bf16 a hlt) (truncf .bf16 wn hlt) p e
  rw [addf_apply, addf_apply, shapeCast_self x, shapeCast_self a, shapeCast_self bv,
    LibRowBroadcast.broadcastTo_1b_ab_apply bv hbc p e 0, hs, hn]
  rfl

/-- A kernel's maximum with the splat of the f32 zero is the rectifier. -/
theorem kernel_relu_apply {s : Shape} (v : FVec Ideal s .f32) (i : s.Idx) :
    maximumf v (broadcast s (Scalar.ofBits .f32 0x00000000#32)) i = max (v i) 0 := by
  rw [maximumf_apply, broadcast_apply]
  exact congrArg (max (v i)) Ideal.ofBits_zero_f32

/-- A kernel's logistic is the logistic function of the entry. -/
theorem kernel_logistic_apply {s : Shape} (v : FVec Ideal s .f32) (i : s.Idx) : logistic v i = Ideal.logistic (v i) := rfl

/-! ## The host's operations on all rows -/

/-- A bias vector broadcast to one row and then down all rows reads, at (p, e), the vector's entry e. -/
theorem host_bias_apply {A B : ℕ} {α : Type} (b : (⟨1, ![B]⟩ : Shape).Idx → α)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    broadcastInDim ⟨2, ![A, B]⟩ ![0, 1] h2 (broadcastInDim ⟨2, ![1, B]⟩ ![1] h1 b) (ix2 p e) = b (ix1 e) := by
  rw [broadcastInDim_oneRow_apply h2 _ p e]
  refine broadcastInDim_apply ![1] h1 b (ix2 (0 : Fin 1) e) (ix1 e) fun a => ?_
  match a with
  | ⟨0, _⟩ =>
    show e.val = if B = 1 then 0 else e.val
    split
    · have := e.isLt; omega
    · rfl

/-- The host's linear layer. -/
theorem host_lin_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (Host.dotGeneral D none x w) (broadcastInDim ⟨2, ![A, B]⟩ ![0, 1] h2 (broadcastInDim ⟨2, ![1, B]⟩ ![1] h1 b)) (ix2 p e)
      = lin x w (fun e => b (ix1 e)) p e := by
  subst hD
  rw [addf_apply, host_bias_apply]
  simp only [Host.dotGeneral]
  rw [LibPlainDot.dotGeneral_plain_apply]
  rfl

/-- The host's dense layer before its activation. -/
theorem host_pre_apply {A K B : ℕ} (D : DotDims ⟨2, ![A, K]⟩ ⟨2, ![K, B]⟩ ⟨2, ![A, B]⟩) (hD : D = DotDims.plain A K B)
    (h a : FVec Ideal ⟨2, ![A, K]⟩ .f32) (ws wn : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (addf (Host.dotGeneral D none h ws) (Host.dotGeneral D none a wn))
        (broadcastInDim ⟨2, ![A, B]⟩ ![0, 1] h2 (broadcastInDim ⟨2, ![1, B]⟩ ![1] h1 b)) (ix2 p e)
      = pre h a ws wn (fun e => b (ix1 e)) p e := by
  subst hD
  rw [addf_apply, addf_apply, host_bias_apply]
  simp only [Host.dotGeneral]
  rw [LibPlainDot.dotGeneral_plain_apply, LibPlainDot.dotGeneral_plain_apply]
  rfl

/-- The host's maximum with the broadcast f32 zero is the rectifier. -/
theorem host_relu_apply {s : Shape} (v : FVec Ideal s .f32) (hb : (⟨0, ![]⟩ : Shape).BroadcastsInDim s ![]) (i : s.Idx) :
    maximumf v (broadcastInDim s ![] hb (constant (F := Ideal) ⟨0, ![]⟩ .f32 0x00000000#32)) i = max (v i) 0 := by
  rw [maximumf_apply, broadcastInDim_scalar_apply]
  exact congrArg (max (v i)) Ideal.ofBits_zero_f32

/-- The host's spelling of the logistic function, 1 / (1 + exp (-x)) with the f32 one broadcast, is the logistic
    function of the entry: that expression is its definition on the extended reals. -/
theorem host_logistic_apply {s : Shape} (v : FVec Ideal s .f32) (hb : (⟨0, ![]⟩ : Shape).BroadcastsInDim s ![]) (i : s.Idx) :
    Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf v))) i
      = Ideal.logistic (v i) := by
  rw [hostDivf_apply, addf_apply, broadcastInDim_scalar_apply]
  show Ideal.div (Ideal.ofBits .f32 0x3F800000#32) (Ideal.ofBits .f32 0x3F800000#32 + Ideal.exp (-(v i))) = Ideal.logistic (v i)
  rw [Ideal.ofBits_one_f32]
  rfl

/-! ## The mean over the neighbours -/

/-- A vector with one entry per node, made a column and spread over the channels, reads the node's entry. -/
theorem column_spread_apply {N C : ℕ} {α : Type} (y : (⟨1, ![N]⟩ : Shape).Idx → α)
    (h1 : (⟨1, ![N]⟩ : Shape).BroadcastsInDim ⟨2, ![N, 1]⟩ ![0]) (h2 : (⟨2, ![N, 1]⟩ : Shape).BroadcastsInDim ⟨2, ![N, C]⟩ ![0, 1])
    (p : Fin N) (e : Fin C) :
    broadcastInDim ⟨2, ![N, C]⟩ ![0, 1] h2 (broadcastInDim ⟨2, ![N, 1]⟩ ![0] h1 y) (ix2 p e) = y (ix1 p) := by
  have e2 := broadcastInDim_apply ![0, 1] h2 (broadcastInDim ⟨2, ![N, 1]⟩ ![0] h1 y) (ix2 p e) (ix2 p (0 : Fin 1)) (fun a => by
    match a with
    | ⟨0, _⟩ =>
      show p.val = if N = 1 then 0 else p.val
      split
      · have := p.isLt; omega
      · rfl
    | ⟨1, _⟩ =>
      show (0 : ℕ) = if (1 : ℕ) = 1 then 0 else e.val
      rw [if_pos rfl])
  have e1 := broadcastInDim_apply ![0] h1 y (ix2 p (0 : Fin 1)) (ix1 p) (fun a => by
    match a with
    | ⟨0, _⟩ =>
      show p.val = if N = 1 then 0 else p.val
      split
      · have := p.isLt; omega
      · rfl)
  exact e2.trans e1

/-- THE LAW THAT JOINS THE TWO PROGRAMS. The neighbour sums times the spread reciprocal of max(degree, 1) are the
    neighbour sums divided by the spread max(degree, 1): the divisor is at least one, so it is not zero, and off a zero
    divisor a product with the reciprocal is the quotient on all the extended reals. -/
theorem sum_times_reciprocal_eq_quotient {N C : ℕ} (S : FVec Ideal ⟨2, ![N, C]⟩ .f32) (d o₁ o₂ : FVec Ideal ⟨1, ![N]⟩ .f32)
    (ho₁ : ∀ i, o₁ i = 1) (ho₂ : ∀ i, o₂ i = 1)
    (h1 : (⟨1, ![N]⟩ : Shape).BroadcastsInDim ⟨2, ![N, 1]⟩ ![0]) (h2 : (⟨2, ![N, 1]⟩ : Shape).BroadcastsInDim ⟨2, ![N, C]⟩ ![0, 1]) :
    mulf S (broadcastInDim ⟨2, ![N, C]⟩ ![0, 1] h2 (broadcastInDim ⟨2, ![N, 1]⟩ ![0] h1 (Host.divf o₂ (maximumf d o₁))))
      = Host.divf S (broadcastInDim ⟨2, ![N, C]⟩ ![0, 1] h2 (broadcastInDim ⟨2, ![N, 1]⟩ ![0] h1 (maximumf d o₁))) := by
  funext i
  obtain ⟨p, e, rfl⟩ : ∃ (p : Fin N) (e : Fin C), i = ix2 p e := ⟨i 0, i 1, eq_ix2 i⟩
  rw [mulf_apply, hostDivf_apply, column_spread_apply, column_spread_apply, hostDivf_apply, maximumf_apply, ho₁, ho₂]
  have hpos : (0 : EReal) < max (d (ix1 p)) 1 := lt_of_lt_of_le zero_lt_one (le_max_right _ _)
  exact Ideal.mul_one_div (ne_of_gt hpos)

end Cert.Gcn

end
-- ==== Proof.Tiles0.lean ====
/-
  Pallas call 0 (the first, purely linear layer, 16 → 16 channels) as ONE function of the arrays it is entered with.

  The call walks the 131072 nodes in 32 tiles of 4096 rows. At tile t the body reads rows 4096·t … 4096·t + 4095 of
  the input features, the weight matrix and the bias row whole, and writes the same rows of the result. A row of the
  result depends only on the same row of the input, so every tile is the restriction of one function of the whole
  arrays, `layer0`; the 32 tiles cover all rows, so after the call the result array IS `layer0` of the entry arrays.
-/
import proofs.«107801_j1898375544952_1_alg».proof.Proof.Gen.KernelIdeal.Frame
import proofs.«107801_j1898375544952_1_alg».proof.Proof.LibDenseLayer

set_option maxRecDepth 16384

noncomputable section

namespace Cert.KernelIdeal.Tiles0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The linear layer on all nodes: at node `i 0`, channel `i 1`. -/
def layer0 (x : S131072x16.Idx → EReal) (w : S16x16.Idx → EReal) (bv : S1x16.Idx → EReal) : S131072x16.Idx → EReal :=
  fun i => Cert.Gcn.lin x w (fun e => bv (ix2 0 e)) (i 0) (i 1)

theorem hz : (![0, 0] : Fin 2 → Nat) = fun _ => 0 := funext fun a => by fin_cases a <;> rfl

/-- The body's stored value at row p, channel e of the tile. -/
theorem pay_apply (x0 : Vec Ideal S4096x16 .f32) (x1 : Vec Ideal S16x16 .f32) (x2 : Vec Ideal S1x16 .f32) (p : Fin 4096) (e : Fin 16) :
    k0_pay1 x0 x1 x2 (ix2 p e) = Cert.Gcn.lin x0 x1 (fun e => x2 (ix2 0 e)) p e := by
  unfold k0_pay1
  exact Cert.Gcn.kernel_lin_apply dot_S4096x16_S16x16_S4096x16_1_0_0_1_n_n rfl x0 x1 x2 _ _ _ p e

/-- Where each window's tile sits at grid point t: the row tiles move with t, the weights and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tile of input features at point t is rows 4096·t … of the entry array. -/
theorem blk0_apply (c : Dev nD) (t : Fin cfg0.N) (y : S4096x16.Idx) (k : S131072x16.Idx)
    (h0 : (k 0).val = t.val * 4096 + (y 0).val) (h1 : (k 1).val = (y 1).val) :
    (iblk0 V c 0 t : Vec Ideal S4096x16 .f32) y = (V c main_arg0 : S131072x16.Idx → EReal) k := by
  obtain ⟨e0, e1, -⟩ := idx_facts t
  unfold iblk0
  rw [View.read_apply]
  show V c main_arg0 _ = V c main_arg0 k
  refine congrArg (V c main_arg0) (funext fun a => Fin.ext ?_)
  match a with
  | ⟨0, _⟩ => show win0_0.index t (0 : Fin 2) * 4096 + 1 * (y 0).val = (k 0).val; rw [e0, h0]; omega
  | ⟨1, _⟩ => show win0_0.index t (1 : Fin 2) * 16 + 1 * (y 1).val = (k 1).val; rw [e1, h1]; omega

/-- The weights' window is the whole matrix at every point. -/
theorem blk1_apply (c : Dev nD) (t : Fin cfg0.N) (y : S16x16.Idx) :
    (iblk0 V c 1 t : Vec Ideal S16x16 .f32) y = (V c main_arg3 : S16x16.Idx → EReal) y := by
  obtain ⟨-, -, e0, e1, -⟩ := idx_facts t
  unfold iblk0
  rw [View.read_apply]
  show V c main_arg3 _ = V c main_arg3 y
  refine congrArg (V c main_arg3) (funext fun a => Fin.ext ?_)
  match a with
  | ⟨0, _⟩ => show win0_1.index t (0 : Fin 2) * 16 + 1 * (y 0).val = (y 0).val; rw [e0]; omega
  | ⟨1, _⟩ => show win0_1.index t (1 : Fin 2) * 16 + 1 * (y 1).val = (y 1).val; rw [e1]; omega

/-- The bias row's window likewise. -/
theorem blk2_apply (c : Dev nD) (t : Fin cfg0.N) (y : S1x16.Idx) :
    (iblk0 V c 2 t : Vec Ideal S1x16 .f32) y = (V c main_v13 : S1x16.Idx → EReal) y := by
  obtain ⟨-, -, -, -, e0, e1, -⟩ := idx_facts t
  unfold iblk0
  rw [View.read_apply]
  show V c main_v13 _ = V c main_v13 y
  refine congrArg (V c main_v13) (funext fun a => Fin.ext ?_)
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega

/-- WHAT POINT t WRITES BACK is tile t of `layer0` of the entry arrays. -/
theorem flushed_eq (c : Dev nD) (t : Fin cfg0.N) :
    (dat0 V c).flushed 3 t = ((cfg0.win 3).blk t).view.read (Elt Ideal)
      (layer0 (V c main_arg0) (V c main_arg3) (V c main_v13)) := by
  show (cfg0.win 3).cut (grid0.coords t) ((dat0 V c).after 3 t) = _
  rw [after0_3]
  unfold out0_3
  rw [View.canon_unit_zero hz]
  simp only [View.ld_unit_zero (S := S4096x16) hz, View.ld_unit_zero (S := S16x16) hz, View.ld_unit_zero (S := S1x16) hz]
  funext j
  obtain ⟨p, e, rfl⟩ : ∃ (p : Fin 4096) (e : Fin 16), j = ix2 p e := ⟨j 0, j 1, eq_ix2 j⟩
  obtain ⟨-, -, -, -, -, -, e0, e1⟩ := idx_facts t
  have hi0 : ((((cfg0.win 3).blk t).view.emb (ix2 p e)) 0).val = t.val * 4096 + p.val := by
    show win0_3.index t (0 : Fin 2) * 4096 + 1 * p.val = _; rw [e0]; omega
  have hi1 : ((((cfg0.win 3).blk t).view.emb (ix2 p e)) 1).val = e.val := by
    show win0_3.index t (1 : Fin 2) * 16 + 1 * e.val = _; rw [e1]; omega
  show k0_pay1 (iblk0 V c 0 t) (iblk0 V c 1 t) (iblk0 V c 2 t) (ix2 p e)
    = layer0 (V c main_arg0) (V c main_arg3) (V c main_v13) (((cfg0.win 3).blk t).view.emb (ix2 p e))
  refine (pay_apply (iblk0 V c 0 t) (iblk0 V c 1 t) (iblk0 V c 2 t) p e).trans ?_
  generalize ((cfg0.win 3).blk t).view.emb (ix2 p e) = i at hi0 hi1
  unfold layer0
  unfold Cert.Gcn.lin
  have he : (i 1 : Fin 16) = e := Fin.ext hi1
  rw [he]
  refine congrArg₂ (· + ·) (Finset.sum_congr rfl fun k _ => ?_) ?_
  · exact congrArg₂ (· * ·) (blk0_apply V c t (ix2 p k) (ix2 (i 0) k) hi0 rfl) (blk1_apply V c t (ix2 k e))
  · exact blk2_apply V c t (ix2 0 e)

/-- An index of the result array is in tile t iff its row is. -/
theorem mem_blk (t : Fin cfg0.N) (i : S131072x16.Idx) :
    i ∈ ((cfg0.win 3).blk t).view.set ↔ ∀ a : Fin 2, win0_3.index t a * S4096x16.size a ≤ (i a).val ∧ (i a).val < win0_3.index t a * S4096x16.size a + S4096x16.size a := by
  show i ∈ ((View.whole main_v14).slice (win0_3.rect t)).set ↔ _
  rw [View.set_slice_whole, Rect.mem_set_unit]
  exact Iff.rfl

/-- Every index is in some tile: row r is in tile r / 4096. -/
theorem cover (i : S131072x16.Idx) : ∃ t : Fin cfg0.N, (cfg0.win 3).flush t = true ∧ i ∈ ((cfg0.win 3).blk t).view.set := by
  have hN : grid0.N = 32 := N_0
  have hi0 : (i 0).val < 131072 := (i 0).isLt
  have hi1 : (i 1).val < 16 := (i 1).isLt
  let t : Fin cfg0.N := ⟨(i 0).val / 4096, by show (i 0).val / 4096 < grid0.N; rw [hN]; omega⟩
  obtain ⟨-, -, -, -, -, -, e0, e1⟩ := idx_facts t
  refine ⟨t, flush0_3 t, ?_⟩
  rw [mem_blk]
  intro a
  have ht : t.val = (i 0).val / 4096 := rfl
  match a with
  | ⟨0, _⟩ => show win0_3.index t (0 : Fin 2) * 4096 ≤ (i 0).val ∧ (i 0).val < win0_3.index t (0 : Fin 2) * 4096 + 4096; rw [e0, ht]; omega
  | ⟨1, _⟩ => show win0_3.index t (1 : Fin 2) * 16 ≤ (i 1).val ∧ (i 1).val < win0_3.index t (1 : Fin 2) * 16 + 16; rw [e1]; omega

/-- THE RESULT ARRAY after the call is `layer0` of the arrays the call is entered with. -/
theorem result (c : Dev nD) :
    (dat0 V c).arrAt 3 cfg0.N = layer0 (V c main_arg0) (V c main_arg3) (V c main_v13) :=
  (dat0 V c).arrAt_eq_of_cover 3 _ (fun t _ => flushed_eq V c t) cover

end Cert.KernelIdeal.Tiles0

end
-- ==== Proof.Tiles1.lean ====
/-
  Pallas call 1 (a dense layer, 16 → 32 channels, the rectifier) as ONE function of the arrays it is entered with.

  The call walks the 131072 nodes in 32 tiles of 4096 rows. At tile t the body reads rows 4096·t … 4096·t + 4095 of
  the node features and of the aggregated neighbour features, the two weight matrices and the bias row whole, and
  writes rows 4096·t … 4096·t + 4095 of the result. A row of the result depends only on the same row of the two
  inputs, so every tile is the restriction of one function of the whole arrays, `layer1`; the 32 tiles cover all
  rows (row r lies in tile r / 4096), so after the call the result array IS `layer1` of the entry arrays.
-/
import proofs.«107801_j1898375544952_1_alg».proof.Proof.Gen.KernelIdeal.Frame
import proofs.«107801_j1898375544952_1_alg».proof.Proof.LibDenseLayer

set_option maxRecDepth 16384

noncomputable section

namespace Cert.KernelIdeal.Tiles1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer on all nodes: at node `i 0`, channel `i 1`, the rectifier of the layer's argument. -/
def layer1 (h a : S131072x16.Idx → EReal) (ws wn : S16x32.Idx → EReal) (bv : S1x32.Idx → EReal) : S131072x32.Idx → EReal :=
  fun i => max (Cert.Gcn.pre h a ws wn (fun e => bv (ix2 0 e)) (i 0) (i 1)) 0

theorem hz : (![0, 0] : Fin 2 → Nat) = fun _ => 0 := funext fun a => by fin_cases a <;> rfl

/-- The body's stored value at row p, channel e of the tile. -/
theorem pay_apply (x0 x1 : Vec Ideal S4096x16 .f32) (x2 x3 : Vec Ideal S16x32 .f32) (x4 : Vec Ideal S1x32 .f32) (p : Fin 4096) (e : Fin 32) :
    k1_pay1 x0 x1 x2 x3 x4 (ix2 p e) = max (Cert.Gcn.pre x0 x1 x2 x3 (fun e => x4 (ix2 0 e)) p e) 0 := by
  unfold k1_pay1
  refine (Cert.Gcn.kernel_relu_apply _ (ix2 p e)).trans ?_
  exact congrArg (fun z => max z 0) (Cert.Gcn.kernel_pre_apply dot_S4096x16_S16x32_S4096x32_1_0_0_1_n_n rfl x0 x1 x2 x3 x4 _ _ _ _ p e)

/-- Where each window's tile sits at grid point t: the row tiles move with t, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The tile of own features at point t is rows 4096·t … of the entry array. -/
theorem blk0_apply (c : Dev nD) (t : Fin cfg1.N) (y : S4096x16.Idx) (k : S131072x16.Idx)
    (h0 : (k 0).val = t.val * 4096 + (y 0).val) (h1 : (k 1).val = (y 1).val) :
    (iblk1 V c 0 t : Vec Ideal S4096x16 .f32) y = (V c main_v14 : S131072x16.Idx → EReal) k := by
  obtain ⟨e0, e1, -⟩ := idx_facts t
  unfold iblk1
  rw [View.read_apply]
  show V c main_v14 _ = V c main_v14 k
  refine congrArg (V c main_v14) (funext fun a => Fin.ext ?_)
  match a with
  | ⟨0, _⟩ => show win1_0.index t (0 : Fin 2) * 4096 + 1 * (y 0).val = (k 0).val; rw [e0, h0]; omega
  | ⟨1, _⟩ => show win1_0.index t (1 : Fin 2) * 16 + 1 * (y 1).val = (k 1).val; rw [e1, h1]; omega

/-- The tile of aggregated features at point t is the same rows of its entry array. -/
theorem blk1_apply (c : Dev nD) (t : Fin cfg1.N) (y : S4096x16.Idx) (k : S131072x16.Idx)
    (h0 : (k 0).val = t.val * 4096 + (y 0).val) (h1 : (k 1).val = (y 1).val) :
    (iblk1 V c 1 t : Vec Ideal S4096x16 .f32) y = (V c main_v26 : S131072x16.Idx → EReal) k := by
  obtain ⟨-, -, e0, e1, -⟩ := idx_facts t
  unfold iblk1
  rw [View.read_apply]
  show V c main_v26 _ = V c main_v26 k
  refine congrArg (V c main_v26) (funext fun a => Fin.ext ?_)
  match a with
  | ⟨0, _⟩ => show win1_1.index t (0 : Fin 2) * 4096 + 1 * (y 0).val = (k 0).val; rw [e0, h0]; omega
  | ⟨1, _⟩ => show win1_1.index t (1 : Fin 2) * 16 + 1 * (y 1).val = (k 1).val; rw [e1, h1]; omega

/-- The self weights' window is the whole matrix at every point. -/
theorem blk2_apply (c : Dev nD) (t : Fin cfg1.N) (y : S16x32.Idx) :
    (iblk1 V c 2 t : Vec Ideal S16x32 .f32) y = (V c main_arg5 : S16x32.Idx → EReal) y := by
  obtain ⟨-, -, -, -, e0, e1, -⟩ := idx_facts t
  unfold iblk1
  rw [View.read_apply]
  show V c main_arg5 _ = V c main_arg5 y
  refine congrArg (V c main_arg5) (funext fun a => Fin.ext ?_)
  match a with
  | ⟨0, _⟩ => show win1_2.index t (0 : Fin 2) * 16 + 1 * (y 0).val = (y 0).val; rw [e0]; omega
  | ⟨1, _⟩ => show win1_2.index t (1 : Fin 2) * 32 + 1 * (y 1).val = (y 1).val; rw [e1]; omega

/-- The neighbour weights' window likewise. -/
theorem blk3_apply (c : Dev nD) (t : Fin cfg1.N) (y : S16x32.Idx) :
    (iblk1 V c 3 t : Vec Ideal S16x32 .f32) y = (V c main_arg6 : S16x32.Idx → EReal) y := by
  obtain ⟨-, -, -, -, -, -, e0, e1, -⟩ := idx_facts t
  unfold iblk1
  rw [View.read_apply]
  show V c main_arg6 _ = V c main_arg6 y
  refine congrArg (V c main_arg6) (funext fun a => Fin.ext ?_)
  match a with
  | ⟨0, _⟩ => show win1_3.index t (0 : Fin 2) * 16 + 1 * (y 0).val = (y 0).val; rw [e0]; omega
  | ⟨1, _⟩ => show win1_3.index t (1 : Fin 2) * 32 + 1 * (y 1).val = (y 1).val; rw [e1]; omega

/-- The bias row's window likewise. -/
theorem blk4_apply (c : Dev nD) (t : Fin cfg1.N) (y : S1x32.Idx) :
    (iblk1 V c 4 t : Vec Ideal S1x32 .f32) y = (V c main_v27 : S1x32.Idx → EReal) y := by
  obtain ⟨-, -, -, -, -, -, -, -, e0, e1, -⟩ := idx_facts t
  unfold iblk1
  rw [View.read_apply]
  show V c main_v27 _ = V c main_v27 y
  refine congrArg (V c main_v27) (funext fun a => Fin.ext ?_)
  match a with
  | ⟨0, _⟩ => show win1_4.index t (0 : Fin 2) * 1 + 1 * (y 0).val = (y 0).val; rw [e0]; omega
  | ⟨1, _⟩ => show win1_4.index t (1 : Fin 2) * 32 + 1 * (y 1).val = (y 1).val; rw [e1]; omega

/-- WHAT POINT t WRITES BACK is tile t of `layer1` of the entry arrays. -/
theorem flushed_eq (c : Dev nD) (t : Fin cfg1.N) :
    (dat1 V c).flushed 5 t = ((cfg1.win 5).blk t).view.read (Elt Ideal)
      (layer1 (V c main_v14) (V c main_v26) (V c main_arg5) (V c main_arg6) (V c main_v27)) := by
  show (cfg1.win 5).cut (grid1.coords t) ((dat1 V c).after 5 t) = _
  rw [after1_5]
  unfold out1_5
  rw [View.canon_unit_zero hz]
  simp only [View.ld_unit_zero (S := S4096x16) hz, View.ld_unit_zero (S := S16x32) hz, View.ld_unit_zero (S := S1x32) hz]
  funext j
  obtain ⟨p, e, rfl⟩ : ∃ (p : Fin 4096) (e : Fin 32), j = ix2 p e := ⟨j 0, j 1, eq_ix2 j⟩
  obtain ⟨-, -, -, -, -, -, -, -, -, -, e0, e1⟩ := idx_facts t
  have hi0 : ((((cfg1.win 5).blk t).view.emb (ix2 p e)) 0).val = t.val * 4096 + p.val := by
    show win1_5.index t (0 : Fin 2) * 4096 + 1 * p.val = _; rw [e0]; omega
  have hi1 : ((((cfg1.win 5).blk t).view.emb (ix2 p e)) 1).val = e.val := by
    show win1_5.index t (1 : Fin 2) * 32 + 1 * e.val = _; rw [e1]; omega
  show k1_pay1 (iblk1 V c 0 t) (iblk1 V c 1 t) (iblk1 V c 2 t) (iblk1 V c 3 t) (iblk1 V c 4 t) (ix2 p e)
    = layer1 (V c main_v14) (V c main_v26) (V c main_arg5) (V c main_arg6) (V c main_v27) (((cfg1.win 5).blk t).view.emb (ix2 p e))
  refine (pay_apply (iblk1 V c 0 t) (iblk1 V c 1 t) (iblk1 V c 2 t) (iblk1 V c 3 t) (iblk1 V c 4 t) p e).trans ?_
  generalize ((cfg1.win 5).blk t).view.emb (ix2 p e) = i at hi0 hi1
  unfold layer1
  refine congrArg (fun z => max z 0) ?_
  unfold Cert.Gcn.pre
  have he : (i 1 : Fin 32) = e := Fin.ext hi1
  rw [he]
  refine congrArg₂ (· + ·) (congrArg₂ (· + ·) (Finset.sum_congr rfl fun k _ => ?_) (Finset.sum_congr rfl fun k _ => ?_)) ?_
  · exact congrArg₂ (· * ·) (blk0_apply V c t (ix2 p k) (ix2 (i 0) k) hi0 rfl) (blk2_apply V c t (ix2 k e))
  · exact congrArg₂ (· * ·) (blk1_apply V c t (ix2 p k) (ix2 (i 0) k) hi0 rfl) (blk3_apply V c t (ix2 k e))
  · exact blk4_apply V c t (ix2 0 e)

/-- An index of the result array is in tile t iff its row is. -/
theorem mem_blk (t : Fin cfg1.N) (i : S131072x32.Idx) :
    i ∈ ((cfg1.win 5).blk t).view.set ↔ ∀ a : Fin 2, win1_5.index t a * S4096x32.size a ≤ (i a).val ∧ (i a).val < win1_5.index t a * S4096x32.size a + S4096x32.size a := by
  show i ∈ ((View.whole main_v28).slice (win1_5.rect t)).set ↔ _
  rw [View.set_slice_whole, Rect.mem_set_unit]
  exact Iff.rfl

/-- Every index is in some tile: row r is in tile r / 4096. -/
theorem cover (i : S131072x32.Idx) : ∃ t : Fin cfg1.N, (cfg1.win 5).flush t = true ∧ i ∈ ((cfg1.win 5).blk t).view.set := by
  have hN : grid1.N = 32 := N_1
  have hi0 : (i 0).val < 131072 := (i 0).isLt
  have hi1 : (i 1).val < 32 := (i 1).isLt
  let t : Fin cfg1.N := ⟨(i 0).val / 4096, by show (i 0).val / 4096 < grid1.N; rw [hN]; omega⟩
  obtain ⟨-, -, -, -, -, -, -, -, -, -, e0, e1⟩ := idx_facts t
  refine ⟨t, flush1_5 t, ?_⟩
  rw [mem_blk]
  intro a
  have ht : t.val = (i 0).val / 4096 := rfl
  match a with
  | ⟨0, _⟩ => show win1_5.index t (0 : Fin 2) * 4096 ≤ (i 0).val ∧ (i 0).val < win1_5.index t (0 : Fin 2) * 4096 + 4096; rw [e0, ht]; omega
  | ⟨1, _⟩ => show win1_5.index t (1 : Fin 2) * 32 ≤ (i 1).val ∧ (i 1).val < win1_5.index t (1 : Fin 2) * 32 + 32; rw [e1]; omega

/-- THE RESULT ARRAY after the call is `layer1` of the arrays the call is entered with. -/
theorem result (c : Dev nD) :
    (dat1 V c).arrAt 5 cfg1.N = layer1 (V c main_v14) (V c main_v26) (V c main_arg5) (V c main_arg6) (V c main_v27) :=
  (dat1 V c).arrAt_eq_of_cover 5 _ (fun t _ => flushed_eq V c t) cover

end Cert.KernelIdeal.Tiles1

end
-- ==== Proof.Tiles2.lean ====
/-
  Pallas call 2 (a dense layer, 32 → 64 channels, the rectifier) as ONE function of the arrays it is entered with.

  The call walks the 131072 nodes in 32 tiles of 4096 rows. At tile t the body reads rows 4096·t … 4096·t + 4095 of
  the node features and of the aggregated neighbour features, the two weight matrices and the bias row whole, and
  writes rows 4096·t … 4096·t + 4095 of the result. A row of the result depends only on the same row of the two
  inputs, so every tile is the restriction of one function of the whole arrays, `layer2`; the 32 tiles cover all
  rows (row r lies in tile r / 4096), so after the call the result array IS `layer2` of the entry arrays.
-/
import proofs.«107801_j1898375544952_1_alg».proof.Proof.Gen.KernelIdeal.Frame
import proofs.«107801_j1898375544952_1_alg».proof.Proof.LibDenseLayer

set_option maxRecDepth 16384

noncomputable section

namespace Cert.KernelIdeal.Tiles2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer on all nodes: at node `i 0`, channel `i 1`, the rectifier of the layer's argument. -/
def layer2 (h a : S131072x32.Idx → EReal) (ws wn : S32x64.Idx → EReal) (bv : S1x64.Idx → EReal) : S131072x64.Idx → EReal :=
  fun i => max (Cert.Gcn.pre h a ws wn (fun e => bv (ix2 0 e)) (i 0) (i 1)) 0

theorem hz : (![0, 0] : Fin 2 → Nat) = fun _ => 0 := funext fun a => by fin_cases a <;> rfl

/-- The body's stored value at row p, channel e of the tile. -/
theorem pay_apply (x0 x1 : Vec Ideal S4096x32 .f32) (x2 x3 : Vec Ideal S32x64 .f32) (x4 : Vec Ideal S1x64 .f32) (p : Fin 4096) (e : Fin 64) :
    k2_pay1 x0 x1 x2 x3 x4 (ix2 p e) = max (Cert.Gcn.pre x0 x1 x2 x3 (fun e => x4 (ix2 0 e)) p e) 0 := by
  unfold k2_pay1
  refine (Cert.Gcn.kernel_relu_apply _ (ix2 p e)).trans ?_
  exact congrArg (fun z => max z 0) (Cert.Gcn.kernel_pre_apply dot_S4096x32_S32x64_S4096x64_1_0_0_1_n_n rfl x0 x1 x2 x3 x4 _ _ _ _ p e)

/-- Where each window's tile sits at grid point t: the row tiles move with t, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The tile of own features at point t is rows 4096·t … of the entry array. -/
theorem blk0_apply (c : Dev nD) (t : Fin cfg2.N) (y : S4096x32.Idx) (k : S131072x32.Idx)
    (h0 : (k 0).val = t.val * 4096 + (y 0).val) (h1 : (k 1).val = (y 1).val) :
    (iblk2 V c 0 t : Vec Ideal S4096x32 .f32) y = (V c main_v28 : S131072x32.Idx → EReal) k := by
  obtain ⟨e0, e1, -⟩ := idx_facts t
  unfold iblk2
  rw [View.read_apply]
  show V c main_v28 _ = V c main_v28 k
  refine congrArg (V c main_v28) (funext fun a => Fin.ext ?_)
  match a with
  | ⟨0, _⟩ => show win2_0.index t (0 : Fin 2) * 4096 + 1 * (y 0).val = (k 0).val; rw [e0, h0]; omega
  | ⟨1, _⟩ => show win2_0.index t (1 : Fin 2) * 32 + 1 * (y 1).val = (k 1).val; rw [e1, h1]; omega

/-- The tile of aggregated features at point t is the same rows of its entry array. -/
theorem blk1_apply (c : Dev nD) (t : Fin cfg2.N) (y : S4096x32.Idx) (k : S131072x32.Idx)
    (h0 : (k 0).val = t.val * 4096 + (y 0).val) (h1 : (k 1).val = (y 1).val) :
    (iblk2 V c 1 t : Vec Ideal S4096x32 .f32) y = (V c main_v40 : S131072x32.Idx → EReal) k := by
  obtain ⟨-, -, e0, e1, -⟩ := idx_facts t
  unfold iblk2
  rw [View.read_apply]
  show V c main_v40 _ = V c main_v40 k
  refine congrArg (V c main_v40) (funext fun a => Fin.ext ?_)
  match a with
  | ⟨0, _⟩ => show win2_1.index t (0 : Fin 2) * 4096 + 1 * (y 0).val = (k 0).val; rw [e0, h0]; omega
  | ⟨1, _⟩ => show win2_1.index t (1 : Fin 2) * 32 + 1 * (y 1).val = (k 1).val; rw [e1, h1]; omega

/-- The self weights' window is the whole matrix at every point. -/
theorem blk2_apply (c : Dev nD) (t : Fin cfg2.N) (y : S32x64.Idx) :
    (iblk2 V c 2 t : Vec Ideal S32x64 .f32) y = (V c main_arg8 : S32x64.Idx → EReal) y := by
  obtain ⟨-, -, -, -, e0, e1, -⟩ := idx_facts t
  unfold iblk2
  rw [View.read_apply]
  show V c main_arg8 _ = V c main_arg8 y
  refine congrArg (V c main_arg8) (funext fun a => Fin.ext ?_)
  match a with
  | ⟨0, _⟩ => show win2_2.index t (0 : Fin 2) * 32 + 1 * (y 0).val = (y 0).val; rw [e0]; omega
  | ⟨1, _⟩ => show win2_2.index t (1 : Fin 2) * 64 + 1 * (y 1).val = (y 1).val; rw [e1]; omega

/-- The neighbour weights' window likewise. -/
theorem blk3_apply (c : Dev nD) (t : Fin cfg2.N) (y : S32x64.Idx) :
    (iblk2 V c 3 t : Vec Ideal S32x64 .f32) y = (V c main_arg9 : S32x64.Idx → EReal) y := by
  obtain ⟨-, -, -, -, -, -, e0, e1, -⟩ := idx_facts t
  unfold iblk2
  rw [View.read_apply]
  show V c main_arg9 _ = V c main_arg9 y
  refine congrArg (V c main_arg9) (funext fun a => Fin.ext ?_)
  match a with
  | ⟨0, _⟩ => show win2_3.index t (0 : Fin 2) * 32 + 1 * (y 0).val = (y 0).val; rw [e0]; omega
  | ⟨1, _⟩ => show win2_3.index t (1 : Fin 2) * 64 + 1 * (y 1).val = (y 1).val; rw [e1]; omega

/-- The bias row's window likewise. -/
theorem blk4_apply (c : Dev nD) (t : Fin cfg2.N) (y : S1x64.Idx) :
    (iblk2 V c 4 t : Vec Ideal S1x64 .f32) y = (V c main_v41 : S1x64.Idx → EReal) y := by
  obtain ⟨-, -, -, -, -, -, -, -, e0, e1, -⟩ := idx_facts t
  unfold iblk2
  rw [View.read_apply]
  show V c main_v41 _ = V c main_v41 y
  refine congrArg (V c main_v41) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- WHAT POINT t WRITES BACK is tile t of `layer2` of the entry arrays. -/
theorem flushed_eq (c : Dev nD) (t : Fin cfg2.N) :
    (dat2 V c).flushed 5 t = ((cfg2.win 5).blk t).view.read (Elt Ideal)
      (layer2 (V c main_v28) (V c main_v40) (V c main_arg8) (V c main_arg9) (V c main_v41)) := by
  show (cfg2.win 5).cut (grid2.coords t) ((dat2 V c).after 5 t) = _
  rw [after2_5]
  unfold out2_5
  rw [View.canon_unit_zero hz]
  simp only [View.ld_unit_zero (S := S4096x32) hz, View.ld_unit_zero (S := S32x64) hz, View.ld_unit_zero (S := S1x64) hz]
  funext j
  obtain ⟨p, e, rfl⟩ : ∃ (p : Fin 4096) (e : Fin 64), j = ix2 p e := ⟨j 0, j 1, eq_ix2 j⟩
  obtain ⟨-, -, -, -, -, -, -, -, -, -, e0, e1⟩ := idx_facts t
  have hi0 : ((((cfg2.win 5).blk t).view.emb (ix2 p e)) 0).val = t.val * 4096 + p.val := by
    show win2_5.index t (0 : Fin 2) * 4096 + 1 * p.val = _; rw [e0]; omega
  have hi1 : ((((cfg2.win 5).blk t).view.emb (ix2 p e)) 1).val = e.val := by
    show win2_5.index t (1 : Fin 2) * 64 + 1 * e.val = _; rw [e1]; omega
  show k2_pay1 (iblk2 V c 0 t) (iblk2 V c 1 t) (iblk2 V c 2 t) (iblk2 V c 3 t) (iblk2 V c 4 t) (ix2 p e)
    = layer2 (V c main_v28) (V c main_v40) (V c main_arg8) (V c main_arg9) (V c main_v41) (((cfg2.win 5).blk t).view.emb (ix2 p e))
  refine (pay_apply (iblk2 V c 0 t) (iblk2 V c 1 t) (iblk2 V c 2 t) (iblk2 V c 3 t) (iblk2 V c 4 t) p e).trans ?_
  generalize ((cfg2.win 5).blk t).view.emb (ix2 p e) = i at hi0 hi1
  unfold layer2
  refine congrArg (fun z => max z 0) ?_
  unfold Cert.Gcn.pre
  have he : (i 1 : Fin 64) = e := Fin.ext hi1
  rw [he]
  refine congrArg₂ (· + ·) (congrArg₂ (· + ·) (Finset.sum_congr rfl fun k _ => ?_) (Finset.sum_congr rfl fun k _ => ?_)) ?_
  · exact congrArg₂ (· * ·) (blk0_apply V c t (ix2 p k) (ix2 (i 0) k) hi0 rfl) (blk2_apply V c t (ix2 k e))
  · exact congrArg₂ (· * ·) (blk1_apply V c t (ix2 p k) (ix2 (i 0) k) hi0 rfl) (blk3_apply V c t (ix2 k e))
  · exact blk4_apply V c t (ix2 0 e)

/-- An index of the result array is in tile t iff its row is. -/
theorem mem_blk (t : Fin cfg2.N) (i : S131072x64.Idx) :
    i ∈ ((cfg2.win 5).blk t).view.set ↔ ∀ a : Fin 2, win2_5.index t a * S4096x64.size a ≤ (i a).val ∧ (i a).val < win2_5.index t a * S4096x64.size a + S4096x64.size a := by
  show i ∈ ((View.whole main_v42).slice (win2_5.rect t)).set ↔ _
  rw [View.set_slice_whole, Rect.mem_set_unit]
  exact Iff.rfl

/-- Every index is in some tile: row r is in tile r / 4096. -/
theorem cover (i : S131072x64.Idx) : ∃ t : Fin cfg2.N, (cfg2.win 5).flush t = true ∧ i ∈ ((cfg2.win 5).blk t).view.set := by
  have hN : grid2.N = 32 := N_2
  have hi0 : (i 0).val < 131072 := (i 0).isLt
  have hi1 : (i 1).val < 64 := (i 1).isLt
  let t : Fin cfg2.N := ⟨(i 0).val / 4096, by show (i 0).val / 4096 < grid2.N; rw [hN]; omega⟩
  obtain ⟨-, -, -, -, -, -, -, -, -, -, e0, e1⟩ := idx_facts t
  refine ⟨t, flush2_5 t, ?_⟩
  rw [mem_blk]
  intro a
  have ht : t.val = (i 0).val / 4096 := rfl
  match a with
  | ⟨0, _⟩ => show win2_5.index t (0 : Fin 2) * 4096 ≤ (i 0).val ∧ (i 0).val < win2_5.index t (0 : Fin 2) * 4096 + 4096; rw [e0, ht]; omega
  | ⟨1, _⟩ => show win2_5.index t (1 : Fin 2) * 64 ≤ (i 1).val ∧ (i 1).val < win2_5.index t (1 : Fin 2) * 64 + 64; rw [e1]; omega

/-- THE RESULT ARRAY after the call is `layer2` of the arrays the call is entered with. -/
theorem result (c : Dev nD) :
    (dat2 V c).arrAt 5 cfg2.N = layer2 (V c main_v28) (V c main_v40) (V c main_arg8) (V c main_arg9) (V c main_v41) :=
  (dat2 V c).arrAt_eq_of_cover 5 _ (fun t _ => flushed_eq V c t) cover

end Cert.KernelIdeal.Tiles2

end
-- ==== Proof.Tiles3.lean ====
/-
  Pallas call 3 (a dense layer, 64 → 128 channels, the logistic function) as ONE function of the arrays it is entered with.

  The call walks the 131072 nodes in 32 tiles of 4096 rows. At tile t the body reads rows 4096·t … 4096·t + 4095 of
  the node features and of the aggregated neighbour features, the two weight matrices and the bias row whole, and
  writes rows 4096·t … 4096·t + 4095 of the result. A row of the result depends only on the same row of the two
  inputs, so every tile is the restriction of one function of the whole arrays, `layer3`; the 32 tiles cover all
  rows (row r lies in tile r / 4096), so after the call the result array IS `layer3` of the entry arrays.
-/
import proofs.«107801_j1898375544952_1_alg».proof.Proof.Gen.KernelIdeal.Frame
import proofs.«107801_j1898375544952_1_alg».proof.Proof.LibDenseLayer

set_option maxRecDepth 16384

noncomputable section

namespace Cert.KernelIdeal.Tiles3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer on all nodes: at node `i 0`, channel `i 1`, the logistic function of the layer's argument. -/
def layer3 (h a : S131072x64.Idx → EReal) (ws wn : S64x128.Idx → EReal) (bv : S1x128.Idx → EReal) : S131072x128.Idx → EReal :=
  fun i => Ideal.logistic (Cert.Gcn.pre h a ws wn (fun e => bv (ix2 0 e)) (i 0) (i 1))

theorem hz : (![0, 0] : Fin 2 → Nat) = fun _ => 0 := funext fun a => by fin_cases a <;> rfl

/-- The body's stored value at row p, channel e of the tile. -/
theorem pay_apply (x0 x1 : Vec Ideal S4096x64 .f32) (x2 x3 : Vec Ideal S64x128 .f32) (x4 : Vec Ideal S1x128 .f32) (p : Fin 4096) (e : Fin 128) :
    k3_pay1 x0 x1 x2 x3 x4 (ix2 p e) = Ideal.logistic (Cert.Gcn.pre x0 x1 x2 x3 (fun e => x4 (ix2 0 e)) p e) := by
  unfold k3_pay1
  refine (Cert.Gcn.kernel_logistic_apply _ (ix2 p e)).trans ?_
  exact congrArg Ideal.logistic (Cert.Gcn.kernel_pre_apply dot_S4096x64_S64x128_S4096x128_1_0_0_1_n_n rfl x0 x1 x2 x3 x4 _ _ _ _ p e)

/-- Where each window's tile sits at grid point t: the row tiles move with t, the weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The tile of own features at point t is rows 4096·t … of the entry array. -/
theorem blk0_apply (c : Dev nD) (t : Fin cfg3.N) (y : S4096x64.Idx) (k : S131072x64.Idx)
    (h0 : (k 0).val = t.val * 4096 + (y 0).val) (h1 : (k 1).val = (y 1).val) :
    (iblk3 V c 0 t : Vec Ideal S4096x64 .f32) y = (V c main_v42 : S131072x64.Idx → EReal) k := by
  obtain ⟨e0, e1, -⟩ := idx_facts t
  unfold iblk3
  rw [View.read_apply]
  show V c main_v42 _ = V c main_v42 k
  refine congrArg (V c main_v42) (funext fun a => Fin.ext ?_)
  match a with
  | ⟨0, _⟩ => show win3_0.index t (0 : Fin 2) * 4096 + 1 * (y 0).val = (k 0).val; rw [e0, h0]; omega
  | ⟨1, _⟩ => show win3_0.index t (1 : Fin 2) * 64 + 1 * (y 1).val = (k 1).val; rw [e1, h1]; omega

/-- The tile of aggregated features at point t is the same rows of its entry array. -/
theorem blk1_apply (c : Dev nD) (t : Fin cfg3.N) (y : S4096x64.Idx) (k : S131072x64.Idx)
    (h0 : (k 0).val = t.val * 4096 + (y 0).val) (h1 : (k 1).val = (y 1).val) :
    (iblk3 V c 1 t : Vec Ideal S4096x64 .f32) y = (V c main_v54 : S131072x64.Idx → EReal) k := by
  obtain ⟨-, -, e0, e1, -⟩ := idx_facts t
  unfold iblk3
  rw [View.read_apply]
  show V c main_v54 _ = V c main_v54 k
  refine congrArg (V c main_v54) (funext fun a => Fin.ext ?_)
  match a with
  | ⟨0, _⟩ => show win3_1.index t (0 : Fin 2) * 4096 + 1 * (y 0).val = (k 0).val; rw [e0, h0]; omega
  | ⟨1, _⟩ => show win3_1.index t (1 : Fin 2) * 64 + 1 * (y 1).val = (k 1).val; rw [e1, h1]; omega

/-- The self weights' window is the whole matrix at every point. -/
theorem blk2_apply (c : Dev nD) (t : Fin cfg3.N) (y : S64x128.Idx) :
    (iblk3 V c 2 t : Vec Ideal S64x128 .f32) y = (V c main_arg11 : S64x128.Idx → EReal) y := by
  obtain ⟨-, -, -, -, e0, e1, -⟩ := idx_facts t
  unfold iblk3
  rw [View.read_apply]
  show V c main_arg11 _ = V c main_arg11 y
  refine congrArg (V c main_arg11) (funext fun a => Fin.ext ?_)
  match a with
  | ⟨0, _⟩ => show win3_2.index t (0 : Fin 2) * 64 + 1 * (y 0).val = (y 0).val; rw [e0]; omega
  | ⟨1, _⟩ => show win3_2.index t (1 : Fin 2) * 128 + 1 * (y 1).val = (y 1).val; rw [e1]; omega

/-- The neighbour weights' window likewise. -/
theorem blk3_apply (c : Dev nD) (t : Fin cfg3.N) (y : S64x128.Idx) :
    (iblk3 V c 3 t : Vec Ideal S64x128 .f32) y = (V c main_arg12 : S64x128.Idx → EReal) y := by
  obtain ⟨-, -, -, -, -, -, e0, e1, -⟩ := idx_facts t
  unfold iblk3
  rw [View.read_apply]
  show V c main_arg12 _ = V c main_arg12 y
  refine congrArg (V c main_arg12) (funext fun a => Fin.ext ?_)
  match a with
  | ⟨0, _⟩ => show win3_3.index t (0 : Fin 2) * 64 + 1 * (y 0).val = (y 0).val; rw [e0]; omega
  | ⟨1, _⟩ => show win3_3.index t (1 : Fin 2) * 128 + 1 * (y 1).val = (y 1).val; rw [e1]; omega

/-- The bias row's window likewise. -/
theorem blk4_apply (c : Dev nD) (t : Fin cfg3.N) (y : S1x128.Idx) :
    (iblk3 V c 4 t : Vec Ideal S1x128 .f32) y = (V c main_v55 : S1x128.Idx → EReal) y := by
  obtain ⟨-, -, -, -, -, -, -, -, e0, e1, -⟩ := idx_facts t
  unfold iblk3
  rw [View.read_apply]
  show V c main_v55 _ = V c main_v55 y
  refine congrArg (V c main_v55) (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- WHAT POINT t WRITES BACK is tile t of `layer3` of the entry arrays. -/
theorem flushed_eq (c : Dev nD) (t : Fin cfg3.N) :
    (dat3 V c).flushed 5 t = ((cfg3.win 5).blk t).view.read (Elt Ideal)
      (layer3 (V c main_v42) (V c main_v54) (V c main_arg11) (V c main_arg12) (V c main_v55)) := by
  show (cfg3.win 5).cut (grid3.coords t) ((dat3 V c).after 5 t) = _
  rw [after3_5]
  unfold out3_5
  rw [View.canon_unit_zero hz]
  simp only [View.ld_unit_zero (S := S4096x64) hz, View.ld_unit_zero (S := S64x128) hz, View.ld_unit_zero (S := S1x128) hz]
  funext j
  obtain ⟨p, e, rfl⟩ : ∃ (p : Fin 4096) (e : Fin 128), j = ix2 p e := ⟨j 0, j 1, eq_ix2 j⟩
  obtain ⟨-, -, -, -, -, -, -, -, -, -, e0, e1⟩ := idx_facts t
  have hi0 : ((((cfg3.win 5).blk t).view.emb (ix2 p e)) 0).val = t.val * 4096 + p.val := by
    show win3_5.index t (0 : Fin 2) * 4096 + 1 * p.val = _; rw [e0]; omega
  have hi1 : ((((cfg3.win 5).blk t).view.emb (ix2 p e)) 1).val = e.val := by
    show win3_5.index t (1 : Fin 2) * 128 + 1 * e.val = _; rw [e1]; omega
  show k3_pay1 (iblk3 V c 0 t) (iblk3 V c 1 t) (iblk3 V c 2 t) (iblk3 V c 3 t) (iblk3 V c 4 t) (ix2 p e)
    = layer3 (V c main_v42) (V c main_v54) (V c main_arg11) (V c main_arg12) (V c main_v55) (((cfg3.win 5).blk t).view.emb (ix2 p e))
  refine (pay_apply (iblk3 V c 0 t) (iblk3 V c 1 t) (iblk3 V c 2 t) (iblk3 V c 3 t) (iblk3 V c 4 t) p e).trans ?_
  generalize ((cfg3.win 5).blk t).view.emb (ix2 p e) = i at hi0 hi1
  unfold layer3
  refine congrArg Ideal.logistic ?_
  unfold Cert.Gcn.pre
  have he : (i 1 : Fin 128) = e := Fin.ext hi1
  rw [he]
  refine congrArg₂ (· + ·) (congrArg₂ (· + ·) (Finset.sum_congr rfl fun k _ => ?_) (Finset.sum_congr rfl fun k _ => ?_)) ?_
  · exact congrArg₂ (· * ·) (blk0_apply V c t (ix2 p k) (ix2 (i 0) k) hi0 rfl) (blk2_apply V c t (ix2 k e))
  · exact congrArg₂ (· * ·) (blk1_apply V c t (ix2 p k) (ix2 (i 0) k) hi0 rfl) (blk3_apply V c t (ix2 k e))
  · exact blk4_apply V c t (ix2 0 e)

/-- An index of the result array is in tile t iff its row is. -/
theorem mem_blk (t : Fin cfg3.N) (i : S131072x128.Idx) :
    i ∈ ((cfg3.win 5).blk t).view.set ↔ ∀ a : Fin 2, win3_5.index t a * S4096x128.size a ≤ (i a).val ∧ (i a).val < win3_5.index t a * S4096x128.size a + S4096x128.size a := by
  show i ∈ ((View.whole main_v56).slice (win3_5.rect t)).set ↔ _
  rw [View.set_slice_whole, Rect.mem_set_unit]
  exact Iff.rfl

/-- Every index is in some tile: row r is in tile r / 4096. -/
theorem cover (i : S131072x128.Idx) : ∃ t : Fin cfg3.N, (cfg3.win 5).flush t = true ∧ i ∈ ((cfg3.win 5).blk t).view.set := by
  have hN : grid3.N = 32 := N_3
  have hi0 : (i 0).val < 131072 := (i 0).isLt
  have hi1 : (i 1).val < 128 := (i 1).isLt
  let t : Fin cfg3.N := ⟨(i 0).val / 4096, by show (i 0).val / 4096 < grid3.N; rw [hN]; omega⟩
  obtain ⟨-, -, -, -, -, -, -, -, -, -, e0, e1⟩ := idx_facts t
  refine ⟨t, flush3_5 t, ?_⟩
  rw [mem_blk]
  intro a
  have ht : t.val = (i 0).val / 4096 := rfl
  match a with
  | ⟨0, _⟩ => show win3_5.index t (0 : Fin 2) * 4096 ≤ (i 0).val ∧ (i 0).val < win3_5.index t (0 : Fin 2) * 4096 + 4096; rw [e0, ht]; omega
  | ⟨1, _⟩ => show win3_5.index t (1 : Fin 2) * 128 ≤ (i 1).val ∧ (i 1).val < win3_5.index t (1 : Fin 2) * 128 + 128; rw [e1]; omega

/-- THE RESULT ARRAY after the call is `layer3` of the arrays the call is entered with. -/
theorem result (c : Dev nD) :
    (dat3 V c).arrAt 5 cfg3.N = layer3 (V c main_v42) (V c main_v54) (V c main_arg11) (V c main_arg12) (V c main_v55) :=
  (dat3 V c).arrAt_eq_of_cover 5 _ (fun t _ => flushed_eq V c t) cover

end Cert.KernelIdeal.Tiles3

end
-- ==== Proof.Walk.lean ====
/-
  What the idealized kernel's result buffer holds, as a function of the argument arrays.

  The program is eight segments: a stretch of host operations, then a Pallas call, four times over. Its buffer contents
  at the segment boundaries are a fold: after a host stretch, each buffer the stretch writes holds its operation's
  value of the operands' contents and every other buffer what it held; after a Pallas call, the call's result array
  holds the layer of the arrays the call was entered with (the tiles cover it) and every other buffer what it held.
  Walking the result buffer back through the fold gives the network:

      h0 = layer0 x W_lin b_lin
      h1 = layer1 h0 (mean of h0 over the neighbours) Ws3 Wn3 b3      (rectified)
      h2 = layer2 h1 (mean of h1 over the neighbours) Ws2 Wn2 b2      (rectified)
      h3 = layer3 h2 (mean of h2 over the neighbours) Ws1 Wn1 b1      (through the logistic function)

  with the edge lists and the reciprocal degrees computed once, by the first stretch, from the edge array, and read
  unchanged by the later stretches.
-/
import proofs.«107801_j1898375544952_1_alg».proof.Proof.Gen.KernelIdeal.Frame
import proofs.«107801_j1898375544952_1_alg».proof.Proof.Tiles0
import proofs.«107801_j1898375544952_1_alg».proof.Proof.Tiles1
import proofs.«107801_j1898375544952_1_alg».proof.Proof.Tiles2
import proofs.«107801_j1898375544952_1_alg».proof.Proof.Tiles3
import Idealize.ShloMosaic.Lib.StableHlo.Run

set_option maxRecDepth 16384
set_option maxHeartbeats 4000000

noncomputable section

namespace Cert.KernelIdeal.Whole

open Cert.KernelIdeal Cert.KernelIdeal.Gen Idealize.ShloMosaic Idealize.ShloMosaic.TcCoe Idealize.ShloMosaic.StableHlo Idealize.SL.Sem

/-! ## The stages -/

/-- The edges' source nodes: row 0 of the edge array. -/
def edgeSrc (x1 : (⟨S2x2097152, .i32⟩ : BufTy).Contents (Elt Ideal)) : (⟨S2097152, .i32⟩ : BufTy).Contents (Elt Ideal) :=
  shapeCast S2097152 (extractStridedSlice S1x2097152 ![0, 0] x1 slices_S2x2097152_S1x2097152_0_0) shapeCasts_S1x2097152_S2097152

/-- The edges' target nodes: row 1 of the edge array. -/
def edgeDst (x1 : (⟨S2x2097152, .i32⟩ : BufTy).Contents (Elt Ideal)) : (⟨S2097152, .i32⟩ : BufTy).Contents (Elt Ideal) :=
  shapeCast S2097152 (extractStridedSlice S1x2097152 ![1, 0] x1 slices_S2x2097152_S1x2097152_1_0) shapeCasts_S1x2097152_S2097152

/-- One over max(number of incoming edges, 1), per node, as a column. -/
def degInv (x1 : (⟨S2x2097152, .i32⟩ : BufTy).Contents (Elt Ideal)) : FVec Ideal S131072x1 .f32 :=
  broadcastInDim S131072x1 ![0] bcast_S131072_S131072x1_0
    (Host.divf (broadcastInDim S131072 ![] bcast_S_S131072 (constant (F := Ideal) S_ .f32 0x3F800000#32))
      (maximumf
        (Host.scatterAdd scatter_S131072_S2097152x1_S2097152_n_0_0_1
          (broadcastInDim S131072 ![] bcast_S_S131072 (constant (F := Ideal) S_ .f32 0x00000000#32))
          (broadcastInDim S2097152x1 ![0] bcast_S2097152_S2097152x1_0 (edgeDst x1))
          (broadcastInDim S2097152 ![] bcast_S_S2097152 (constant (F := Ideal) S_ .f32 0x3F800000#32)))
        (broadcastInDim S131072 ![] bcast_S_S131072 (constant (F := Ideal) S_ .f32 0x3F800000#32))))

/-- The mean of the neighbours' rows, 16 channels: each edge carries its source node's row (negative node numbers
    count from the end), the rows are summed into the edge's target node, and every node's sum is multiplied by the
    reciprocal of its number of incoming edges (at least one). -/
def agg16 (h : FVec Ideal S131072x16 .f32) (src dst : (⟨S2097152, .i32⟩ : BufTy).Contents (Elt Ideal)) (dinv : FVec Ideal S131072x1 .f32) : FVec Ideal S131072x16 .f32 :=
  mulf
    (Host.scatterAdd scatter_S131072x16_S2097152x1_S2097152x16_1_0_0_1
      (broadcastInDim S131072x16 ![] bcast_S_S131072x16 (constant (F := Ideal) S_ .f32 0x00000000#32))
      (broadcastInDim S2097152x1 ![0] bcast_S2097152_S2097152x1_0 dst)
      (Host.gather gather_S131072x16_S2097152x1_S2097152x16_1_0_n_n_0_1_116 h
        (broadcastInDim S2097152x1 ![0] bcast_S2097152_S2097152x1_0
          (select (cmpi .slt src (broadcastInDim S2097152 ![] bcast_S_S2097152 (constantI S_ 32 0#32)))
            (addi src (broadcastInDim S2097152 ![] bcast_S_S2097152 (constantI S_ 32 131072#32))) src))))
    (broadcastInDim S131072x16 ![0, 1] bcast_S131072x1_S131072x16_0_1 dinv)

/-- The mean of the neighbours' rows, 32 channels: each edge carries its source node's row (negative node numbers
    count from the end), the rows are summed into the edge's target node, and every node's sum is multiplied by the
    reciprocal of its number of incoming edges (at least one). -/
def agg32 (h : FVec Ideal S131072x32 .f32) (src dst : (⟨S2097152, .i32⟩ : BufTy).Contents (Elt Ideal)) (dinv : FVec Ideal S131072x1 .f32) : FVec Ideal S131072x32 .f32 :=
  mulf
    (Host.scatterAdd scatter_S131072x32_S2097152x1_S2097152x32_1_0_0_1
      (broadcastInDim S131072x32 ![] bcast_S_S131072x32 (constant (F := Ideal) S_ .f32 0x00000000#32))
      (broadcastInDim S2097152x1 ![0] bcast_S2097152_S2097152x1_0 dst)
      (Host.gather gather_S131072x32_S2097152x1_S2097152x32_1_0_n_n_0_1_132 h
        (broadcastInDim S2097152x1 ![0] bcast_S2097152_S2097152x1_0
          (select (cmpi .slt src (broadcastInDim S2097152 ![] bcast_S_S2097152 (constantI S_ 32 0#32)))
            (addi src (broadcastInDim S2097152 ![] bcast_S_S2097152 (constantI S_ 32 131072#32))) src))))
    (broadcastInDim S131072x32 ![0, 1] bcast_S131072x1_S131072x32_0_1 dinv)

/-- The mean of the neighbours' rows, 64 channels: each edge carries its source node's row (negative node numbers
    count from the end), the rows are summed into the edge's target node, and every node's sum is multiplied by the
    reciprocal of its number of incoming edges (at least one). -/
def agg64 (h : FVec Ideal S131072x64 .f32) (src dst : (⟨S2097152, .i32⟩ : BufTy).Contents (Elt Ideal)) (dinv : FVec Ideal S131072x1 .f32) : FVec Ideal S131072x64 .f32 :=
  mulf
    (Host.scatterAdd scatter_S131072x64_S2097152x1_S2097152x64_1_0_0_1
      (broadcastInDim S131072x64 ![] bcast_S_S131072x64 (constant (F := Ideal) S_ .f32 0x00000000#32))
      (broadcastInDim S2097152x1 ![0] bcast_S2097152_S2097152x1_0 dst)
      (Host.gather gather_S131072x64_S2097152x1_S2097152x64_1_0_n_n_0_1_164 h
        (broadcastInDim S2097152x1 ![0] bcast_S2097152_S2097152x1_0
          (select (cmpi .slt src (broadcastInDim S2097152 ![] bcast_S_S2097152 (constantI S_ 32 0#32)))
            (addi src (broadcastInDim S2097152 ![] bcast_S_S2097152 (constantI S_ 32 131072#32))) src))))
    (broadcastInDim S131072x64 ![0, 1] bcast_S131072x1_S131072x64_0_1 dinv)

variable (x0 : FVec Ideal S131072x16 .f32) (x1 : (⟨S2x2097152, .i32⟩ : BufTy).Contents (Elt Ideal)) (x3 : FVec Ideal S16x16 .f32) (x4 : FVec Ideal S16 .f32)
  (x5 x6 : FVec Ideal S16x32 .f32) (x7 : FVec Ideal S32 .f32) (x8 x9 : FVec Ideal S32x64 .f32) (x10 : FVec Ideal S64 .f32)
  (x11 x12 : FVec Ideal S64x128 .f32) (x13 : FVec Ideal S128 .f32)

/-- The first layer's output. -/
def h0 : FVec Ideal S131072x16 .f32 := Tiles0.layer0 x0 x3 (shapeCast S1x16 x4 shapeCasts_S16_S1x16)
/-- The mean of `h0` over the neighbours. -/
def a1 : FVec Ideal S131072x16 .f32 := agg16 (h0 x0 x3 x4) (edgeSrc x1) (edgeDst x1) (degInv x1)
/-- The second layer's output. -/
def h1 : FVec Ideal S131072x32 .f32 := Tiles1.layer1 (h0 x0 x3 x4) (a1 x0 x1 x3 x4) x5 x6 (shapeCast S1x32 x7 shapeCasts_S32_S1x32)
/-- The mean of `h1` over the neighbours. -/
def a2 : FVec Ideal S131072x32 .f32 := agg32 (h1 x0 x1 x3 x4 x5 x6 x7) (edgeSrc x1) (edgeDst x1) (degInv x1)
/-- The third layer's output. -/
def h2 : FVec Ideal S131072x64 .f32 :=
  Tiles2.layer2 (h1 x0 x1 x3 x4 x5 x6 x7) (a2 x0 x1 x3 x4 x5 x6 x7) x8 x9 (shapeCast S1x64 x10 shapeCasts_S64_S1x64)
/-- The mean of `h2` over the neighbours. -/
def a3 : FVec Ideal S131072x64 .f32 := agg64 (h2 x0 x1 x3 x4 x5 x6 x7 x8 x9 x10) (edgeSrc x1) (edgeDst x1) (degInv x1)
/-- The network's output. -/
def h3 : FVec Ideal S131072x128 .f32 :=
  Tiles3.layer3 (h2 x0 x1 x3 x4 x5 x6 x7 x8 x9 x10) (a3 x0 x1 x3 x4 x5 x6 x7 x8 x9 x10) x11 x12 (shapeCast S1x128 x13 shapeCasts_S128_S1x128)

/-! ## The walk -/

variable (m : (ℓ : Loc nD τ sig) → Buf (Elt Ideal) ℓ) (ρ : Dev nD → PrngReg) (c : Dev nD)

/-! ### After the first stretch: the edge lists, the reciprocal degrees, the first bias as a row; the arguments as launched -/
theorem w1_arg0 : W1 m ρ c (Proc.devRef .tc main_arg0) = m ((c.tc : Thread nD τ).loc main_arg0) := by
  show StableHlo.after hostOps0 (W0 m ρ c) (Proc.devRef .tc main_arg0) = _
  after_results_simp <;> rfl
theorem w1_arg3 : W1 m ρ c (Proc.devRef .tc main_arg3) = m ((c.tc : Thread nD τ).loc main_arg3) := by
  show StableHlo.after hostOps0 (W0 m ρ c) (Proc.devRef .tc main_arg3) = _
  after_results_simp <;> rfl
theorem w1_arg5 : W1 m ρ c (Proc.devRef .tc main_arg5) = m ((c.tc : Thread nD τ).loc main_arg5) := by
  show StableHlo.after hostOps0 (W0 m ρ c) (Proc.devRef .tc main_arg5) = _
  after_results_simp <;> rfl
theorem w1_arg6 : W1 m ρ c (Proc.devRef .tc main_arg6) = m ((c.tc : Thread nD τ).loc main_arg6) := by
  show StableHlo.after hostOps0 (W0 m ρ c) (Proc.devRef .tc main_arg6) = _
  after_results_simp <;> rfl
theorem w1_arg7 : W1 m ρ c (Proc.devRef .tc main_arg7) = m ((c.tc : Thread nD τ).loc main_arg7) := by
  show StableHlo.after hostOps0 (W0 m ρ c) (Proc.devRef .tc main_arg7) = _
  after_results_simp <;> rfl
theorem w1_arg8 : W1 m ρ c (Proc.devRef .tc main_arg8) = m ((c.tc : Thread nD τ).loc main_arg8) := by
  show StableHlo.after hostOps0 (W0 m ρ c) (Proc.devRef .tc main_arg8) = _
  after_results_simp <;> rfl
theorem w1_arg9 : W1 m ρ c (Proc.devRef .tc main_arg9) = m ((c.tc : Thread nD τ).loc main_arg9) := by
  show StableHlo.after hostOps0 (W0 m ρ c) (Proc.devRef .tc main_arg9) = _
  after_results_simp <;> rfl
theorem w1_arg10 : W1 m ρ c (Proc.devRef .tc main_arg10) = m ((c.tc : Thread nD τ).loc main_arg10) := by
  show StableHlo.after hostOps0 (W0 m ρ c) (Proc.devRef .tc main_arg10) = _
  after_results_simp <;> rfl
theorem w1_arg11 : W1 m ρ c (Proc.devRef .tc main_arg11) = m ((c.tc : Thread nD τ).loc main_arg11) := by
  show StableHlo.after hostOps0 (W0 m ρ c) (Proc.devRef .tc main_arg11) = _
  after_results_simp <;> rfl
theorem w1_arg12 : W1 m ρ c (Proc.devRef .tc main_arg12) = m ((c.tc : Thread nD τ).loc main_arg12) := by
  show StableHlo.after hostOps0 (W0 m ρ c) (Proc.devRef .tc main_arg12) = _
  after_results_simp <;> rfl
theorem w1_arg13 : W1 m ρ c (Proc.devRef .tc main_arg13) = m ((c.tc : Thread nD τ).loc main_arg13) := by
  show StableHlo.after hostOps0 (W0 m ρ c) (Proc.devRef .tc main_arg13) = _
  after_results_simp <;> rfl
theorem w1_v13 : W1 m ρ c (Proc.devRef .tc main_v13) = shapeCast S1x16 (m ((c.tc : Thread nD τ).loc main_arg4)) shapeCasts_S16_S1x16 := by
  show StableHlo.after hostOps0 (W0 m ρ c) (Proc.devRef .tc main_v13) = _
  after_results_simp <;> rfl
theorem w1_v1 : W1 m ρ c (Proc.devRef .tc main_v1) = edgeSrc (m ((c.tc : Thread nD τ).loc main_arg1)) := by
  show StableHlo.after hostOps0 (W0 m ρ c) (Proc.devRef .tc main_v1) = _
  after_results_simp <;> rfl
theorem w1_v3 : W1 m ρ c (Proc.devRef .tc main_v3) = edgeDst (m ((c.tc : Thread nD τ).loc main_arg1)) := by
  show StableHlo.after hostOps0 (W0 m ρ c) (Proc.devRef .tc main_v3) = _
  after_results_simp <;> rfl
theorem w1_v12 : W1 m ρ c (Proc.devRef .tc main_v12) = degInv (m ((c.tc : Thread nD τ).loc main_arg1)) := by
  show StableHlo.after hostOps0 (W0 m ρ c) (Proc.devRef .tc main_v12) = _
  after_results_simp <;> rfl

/-! ### After call 0: the first layer -/
theorem w2_v14 : W2 m ρ c (Proc.devRef .tc main_v14) = h0 (m ((c.tc : Thread nD τ).loc main_arg0)) (m ((c.tc : Thread nD τ).loc main_arg3)) (m ((c.tc : Thread nD τ).loc main_arg4)) := by
  refine (W2_arr m ρ c 3).trans ((Tiles0.result (V1 m ρ) c).trans ?_)
  show Tiles0.layer0 (W1 m ρ c (Proc.devRef .tc main_arg0)) (W1 m ρ c (Proc.devRef .tc main_arg3)) (W1 m ρ c (Proc.devRef .tc main_v13)) = _
  rw [w1_arg0, w1_arg3, w1_v13]
  rfl
theorem w2_v1 : W2 m ρ c (Proc.devRef .tc main_v1) = W1 m ρ c (Proc.devRef .tc main_v1) := W2_of_ne m ρ c main_v1 (by decide)
theorem w2_v3 : W2 m ρ c (Proc.devRef .tc main_v3) = W1 m ρ c (Proc.devRef .tc main_v3) := W2_of_ne m ρ c main_v3 (by decide)
theorem w2_v12 : W2 m ρ c (Proc.devRef .tc main_v12) = W1 m ρ c (Proc.devRef .tc main_v12) := W2_of_ne m ρ c main_v12 (by decide)
theorem w2_arg5 : W2 m ρ c (Proc.devRef .tc main_arg5) = W1 m ρ c (Proc.devRef .tc main_arg5) := W2_of_ne m ρ c main_arg5 (by decide)
theorem w2_arg6 : W2 m ρ c (Proc.devRef .tc main_arg6) = W1 m ρ c (Proc.devRef .tc main_arg6) := W2_of_ne m ρ c main_arg6 (by decide)
theorem w2_arg7 : W2 m ρ c (Proc.devRef .tc main_arg7) = W1 m ρ c (Proc.devRef .tc main_arg7) := W2_of_ne m ρ c main_arg7 (by decide)
theorem w2_arg8 : W2 m ρ c (Proc.devRef .tc main_arg8) = W1 m ρ c (Proc.devRef .tc main_arg8) := W2_of_ne m ρ c main_arg8 (by decide)
theorem w2_arg9 : W2 m ρ c (Proc.devRef .tc main_arg9) = W1 m ρ c (Proc.devRef .tc main_arg9) := W2_of_ne m ρ c main_arg9 (by decide)
theorem w2_arg10 : W2 m ρ c (Proc.devRef .tc main_arg10) = W1 m ρ c (Proc.devRef .tc main_arg10) := W2_of_ne m ρ c main_arg10 (by decide)
theorem w2_arg11 : W2 m ρ c (Proc.devRef .tc main_arg11) = W1 m ρ c (Proc.devRef .tc main_arg11) := W2_of_ne m ρ c main_arg11 (by decide)
theorem w2_arg12 : W2 m ρ c (Proc.devRef .tc main_arg12) = W1 m ρ c (Proc.devRef .tc main_arg12) := W2_of_ne m ρ c main_arg12 (by decide)
theorem w2_arg13 : W2 m ρ c (Proc.devRef .tc main_arg13) = W1 m ρ c (Proc.devRef .tc main_arg13) := W2_of_ne m ρ c main_arg13 (by decide)

/-! ### After the second stretch: the mean of the first layer over the neighbours, the second bias as a row -/
theorem w3_v14 : W3 m ρ c (Proc.devRef .tc main_v14) = W2 m ρ c (Proc.devRef .tc main_v14) := by
  show StableHlo.after hostOps1 (W2 m ρ c) (Proc.devRef .tc main_v14) = _
  generalize W2 m ρ c = Wx
  after_results_simp <;> rfl
theorem w3_arg5 : W3 m ρ c (Proc.devRef .tc main_arg5) = W2 m ρ c (Proc.devRef .tc main_arg5) := by
  show StableHlo.after hostOps1 (W2 m ρ c) (Proc.devRef .tc main_arg5) = _
  generalize W2 m ρ c = Wx
  after_results_simp <;> rfl
theorem w3_arg6 : W3 m ρ c (Proc.devRef .tc main_arg6) = W2 m ρ c (Proc.devRef .tc main_arg6) := by
  show StableHlo.after hostOps1 (W2 m ρ c) (Proc.devRef .tc main_arg6) = _
  generalize W2 m ρ c = Wx
  after_results_simp <;> rfl
theorem w3_v1 : W3 m ρ c (Proc.devRef .tc main_v1) = W2 m ρ c (Proc.devRef .tc main_v1) := by
  show StableHlo.after hostOps1 (W2 m ρ c) (Proc.devRef .tc main_v1) = _
  generalize W2 m ρ c = Wx
  after_results_simp <;> rfl
theorem w3_v3 : W3 m ρ c (Proc.devRef .tc main_v3) = W2 m ρ c (Proc.devRef .tc main_v3) := by
  show StableHlo.after hostOps1 (W2 m ρ c) (Proc.devRef .tc main_v3) = _
  generalize W2 m ρ c = Wx
  after_results_simp <;> rfl
theorem w3_v12 : W3 m ρ c (Proc.devRef .tc main_v12) = W2 m ρ c (Proc.devRef .tc main_v12) := by
  show StableHlo.after hostOps1 (W2 m ρ c) (Proc.devRef .tc main_v12) = _
  generalize W2 m ρ c = Wx
  after_results_simp <;> rfl
theorem w3_arg8 : W3 m ρ c (Proc.devRef .tc main_arg8) = W2 m ρ c (Proc.devRef .tc main_arg8) := by
  show StableHlo.after hostOps1 (W2 m ρ c) (Proc.devRef .tc main_arg8) = _
  generalize W2 m ρ c = Wx
  after_results_simp <;> rfl
theorem w3_arg9 : W3 m ρ c (Proc.devRef .tc main_arg9) = W2 m ρ c (Proc.devRef .tc main_arg9) := by
  show StableHlo.after hostOps1 (W2 m ρ c) (Proc.devRef .tc main_arg9) = _
  generalize W2 m ρ c = Wx
  after_results_simp <;> rfl
theorem w3_arg10 : W3 m ρ c (Proc.devRef .tc main_arg10) = W2 m ρ c (Proc.devRef .tc main_arg10) := by
  show StableHlo.after hostOps1 (W2 m ρ c) (Proc.devRef .tc main_arg10) = _
  generalize W2 m ρ c = Wx
  after_results_simp <;> rfl
theorem w3_arg11 : W3 m ρ c (Proc.devRef .tc main_arg11) = W2 m ρ c (Proc.devRef .tc main_arg11) := by
  show StableHlo.after hostOps1 (W2 m ρ c) (Proc.devRef .tc main_arg11) = _
  generalize W2 m ρ c = Wx
  after_results_simp <;> rfl
theorem w3_arg12 : W3 m ρ c (Proc.devRef .tc main_arg12) = W2 m ρ c (Proc.devRef .tc main_arg12) := by
  show StableHlo.after hostOps1 (W2 m ρ c) (Proc.devRef .tc main_arg12) = _
  generalize W2 m ρ c = Wx
  after_results_simp <;> rfl
theorem w3_arg13 : W3 m ρ c (Proc.devRef .tc main_arg13) = W2 m ρ c (Proc.devRef .tc main_arg13) := by
  show StableHlo.after hostOps1 (W2 m ρ c) (Proc.devRef .tc main_arg13) = _
  generalize W2 m ρ c = Wx
  after_results_simp <;> rfl
theorem w3_v26 : W3 m ρ c (Proc.devRef .tc main_v26) = agg16 (W2 m ρ c (Proc.devRef .tc main_v14)) (W2 m ρ c (Proc.devRef .tc main_v1)) (W2 m ρ c (Proc.devRef .tc main_v3)) (W2 m ρ c (Proc.devRef .tc main_v12)) := by
  show StableHlo.after hostOps1 (W2 m ρ c) (Proc.devRef .tc main_v26) = _
  generalize W2 m ρ c = Wx
  after_results_simp <;> rfl
theorem w3_v27 : W3 m ρ c (Proc.devRef .tc main_v27) = shapeCast S1x32 (W2 m ρ c (Proc.devRef .tc main_arg7)) shapeCasts_S32_S1x32 := by
  show StableHlo.after hostOps1 (W2 m ρ c) (Proc.devRef .tc main_v27) = _
  generalize W2 m ρ c = Wx
  after_results_simp <;> rfl

/-! ### After call 1: the second layer -/
theorem w4_v28 : W4 m ρ c (Proc.devRef .tc main_v28) = h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ((Tiles1.result (V3 m ρ) c).trans ?_)
  show Tiles1.layer1 (W3 m ρ c (Proc.devRef .tc main_v14)) (W3 m ρ c (Proc.devRef .tc main_v26)) (W3 m ρ c (Proc.devRef .tc main_arg5)) (W3 m ρ c (Proc.devRef .tc main_arg6)) (W3 m ρ c (Proc.devRef .tc main_v27)) = _
  rw [w3_v26, w3_v27, w3_v14, w3_arg5, w3_arg6, w2_v14, w2_v1, w2_v3, w2_v12, w2_arg5, w2_arg6, w2_arg7, w1_v1, w1_v3, w1_v12, w1_arg5, w1_arg6, w1_arg7]
  rfl
theorem w4_v1 : W4 m ρ c (Proc.devRef .tc main_v1) = W3 m ρ c (Proc.devRef .tc main_v1) := W4_of_ne m ρ c main_v1 (by decide)
theorem w4_v3 : W4 m ρ c (Proc.devRef .tc main_v3) = W3 m ρ c (Proc.devRef .tc main_v3) := W4_of_ne m ρ c main_v3 (by decide)
theorem w4_v12 : W4 m ρ c (Proc.devRef .tc main_v12) = W3 m ρ c (Proc.devRef .tc main_v12) := W4_of_ne m ρ c main_v12 (by decide)
theorem w4_arg8 : W4 m ρ c (Proc.devRef .tc main_arg8) = W3 m ρ c (Proc.devRef .tc main_arg8) := W4_of_ne m ρ c main_arg8 (by decide)
theorem w4_arg9 : W4 m ρ c (Proc.devRef .tc main_arg9) = W3 m ρ c (Proc.devRef .tc main_arg9) := W4_of_ne m ρ c main_arg9 (by decide)
theorem w4_arg10 : W4 m ρ c (Proc.devRef .tc main_arg10) = W3 m ρ c (Proc.devRef .tc main_arg10) := W4_of_ne m ρ c main_arg10 (by decide)
theorem w4_arg11 : W4 m ρ c (Proc.devRef .tc main_arg11) = W3 m ρ c (Proc.devRef .tc main_arg11) := W4_of_ne m ρ c main_arg11 (by decide)
theorem w4_arg12 : W4 m ρ c (Proc.devRef .tc main_arg12) = W3 m ρ c (Proc.devRef .tc main_arg12) := W4_of_ne m ρ c main_arg12 (by decide)
theorem w4_arg13 : W4 m ρ c (Proc.devRef .tc main_arg13) = W3 m ρ c (Proc.devRef .tc main_arg13) := W4_of_ne m ρ c main_arg13 (by decide)

/-! ### After the third stretch: the mean of the second layer over the neighbours, the third bias as a row -/
theorem w5_v28 : W5 m ρ c (Proc.devRef .tc main_v28) = W4 m ρ c (Proc.devRef .tc main_v28) := by
  show StableHlo.after hostOps2 (W4 m ρ c) (Proc.devRef .tc main_v28) = _
  generalize W4 m ρ c = Wx
  after_results_simp <;> rfl
theorem w5_arg8 : W5 m ρ c (Proc.devRef .tc main_arg8) = W4 m ρ c (Proc.devRef .tc main_arg8) := by
  show StableHlo.after hostOps2 (W4 m ρ c) (Proc.devRef .tc main_arg8) = _
  generalize W4 m ρ c = Wx
  after_results_simp <;> rfl
theorem w5_arg9 : W5 m ρ c (Proc.devRef .tc main_arg9) = W4 m ρ c (Proc.devRef .tc main_arg9) := by
  show StableHlo.after hostOps2 (W4 m ρ c) (Proc.devRef .tc main_arg9) = _
  generalize W4 m ρ c = Wx
  after_results_simp <;> rfl
theorem w5_v1 : W5 m ρ c (Proc.devRef .tc main_v1) = W4 m ρ c (Proc.devRef .tc main_v1) := by
  show StableHlo.after hostOps2 (W4 m ρ c) (Proc.devRef .tc main_v1) = _
  generalize W4 m ρ c = Wx
  after_results_simp <;> rfl
theorem w5_v3 : W5 m ρ c (Proc.devRef .tc main_v3) = W4 m ρ c (Proc.devRef .tc main_v3) := by
  show StableHlo.after hostOps2 (W4 m ρ c) (Proc.devRef .tc main_v3) = _
  generalize W4 m ρ c = Wx
  after_results_simp <;> rfl
theorem w5_v12 : W5 m ρ c (Proc.devRef .tc main_v12) = W4 m ρ c (Proc.devRef .tc main_v12) := by
  show StableHlo.after hostOps2 (W4 m ρ c) (Proc.devRef .tc main_v12) = _
  generalize W4 m ρ c = Wx
  after_results_simp <;> rfl
theorem w5_arg11 : W5 m ρ c (Proc.devRef .tc main_arg11) = W4 m ρ c (Proc.devRef .tc main_arg11) := by
  show StableHlo.after hostOps2 (W4 m ρ c) (Proc.devRef .tc main_arg11) = _
  generalize W4 m ρ c = Wx
  after_results_simp <;> rfl
theorem w5_arg12 : W5 m ρ c (Proc.devRef .tc main_arg12) = W4 m ρ c (Proc.devRef .tc main_arg12) := by
  show StableHlo.after hostOps2 (W4 m ρ c) (Proc.devRef .tc main_arg12) = _
  generalize W4 m ρ c = Wx
  after_results_simp <;> rfl
theorem w5_arg13 : W5 m ρ c (Proc.devRef .tc main_arg13) = W4 m ρ c (Proc.devRef .tc main_arg13) := by
  show StableHlo.after hostOps2 (W4 m ρ c) (Proc.devRef .tc main_arg13) = _
  generalize W4 m ρ c = Wx
  after_results_simp <;> rfl
theorem w5_v40 : W5 m ρ c (Proc.devRef .tc main_v40) = agg32 (W4 m ρ c (Proc.devRef .tc main_v28)) (W4 m ρ c (Proc.devRef .tc main_v1)) (W4 m ρ c (Proc.devRef .tc main_v3)) (W4 m ρ c (Proc.devRef .tc main_v12)) := by
  show StableHlo.after hostOps2 (W4 m ρ c) (Proc.devRef .tc main_v40) = _
  generalize W4 m ρ c = Wx
  after_results_simp <;> rfl
theorem w5_v41 : W5 m ρ c (Proc.devRef .tc main_v41) = shapeCast S1x64 (W4 m ρ c (Proc.devRef .tc main_arg10)) shapeCasts_S64_S1x64 := by
  show StableHlo.after hostOps2 (W4 m ρ c) (Proc.devRef .tc main_v41) = _
  generalize W4 m ρ c = Wx
  after_results_simp <;> rfl

/-- The edge lists and the reciprocal degrees, and an argument, three segments on. -/
theorem w4_v1' : W4 m ρ c (Proc.devRef .tc main_v1) = edgeSrc (m ((c.tc : Thread nD τ).loc main_arg1)) := by rw [w4_v1, w3_v1, w2_v1, w1_v1]
theorem w4_v3' : W4 m ρ c (Proc.devRef .tc main_v3) = edgeDst (m ((c.tc : Thread nD τ).loc main_arg1)) := by rw [w4_v3, w3_v3, w2_v3, w1_v3]
theorem w4_v12' : W4 m ρ c (Proc.devRef .tc main_v12) = degInv (m ((c.tc : Thread nD τ).loc main_arg1)) := by rw [w4_v12, w3_v12, w2_v12, w1_v12]
theorem w4_arg8' : W4 m ρ c (Proc.devRef .tc main_arg8) = m ((c.tc : Thread nD τ).loc main_arg8) := by rw [w4_arg8, w3_arg8, w2_arg8, w1_arg8]
theorem w4_arg9' : W4 m ρ c (Proc.devRef .tc main_arg9) = m ((c.tc : Thread nD τ).loc main_arg9) := by rw [w4_arg9, w3_arg9, w2_arg9, w1_arg9]
theorem w4_arg10' : W4 m ρ c (Proc.devRef .tc main_arg10) = m ((c.tc : Thread nD τ).loc main_arg10) := by rw [w4_arg10, w3_arg10, w2_arg10, w1_arg10]
theorem w4_arg11' : W4 m ρ c (Proc.devRef .tc main_arg11) = m ((c.tc : Thread nD τ).loc main_arg11) := by rw [w4_arg11, w3_arg11, w2_arg11, w1_arg11]
theorem w4_arg12' : W4 m ρ c (Proc.devRef .tc main_arg12) = m ((c.tc : Thread nD τ).loc main_arg12) := by rw [w4_arg12, w3_arg12, w2_arg12, w1_arg12]
theorem w4_arg13' : W4 m ρ c (Proc.devRef .tc main_arg13) = m ((c.tc : Thread nD τ).loc main_arg13) := by rw [w4_arg13, w3_arg13, w2_arg13, w1_arg13]

/-! ### After call 2: the third layer -/
theorem w6_v42 : W6 m ρ c (Proc.devRef .tc main_v42) = h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 5).trans ((Tiles2.result (V5 m ρ) c).trans ?_)
  show Tiles2.layer2 (W5 m ρ c (Proc.devRef .tc main_v28)) (W5 m ρ c (Proc.devRef .tc main_v40)) (W5 m ρ c (Proc.devRef .tc main_arg8)) (W5 m ρ c (Proc.devRef .tc main_arg9)) (W5 m ρ c (Proc.devRef .tc main_v41)) = _
  rw [w5_v40, w5_v41, w5_v28, w5_arg8, w5_arg9, w4_v28, w4_v1', w4_v3', w4_v12', w4_arg8', w4_arg9', w4_arg10']
  rfl
theorem w6_v1 : W6 m ρ c (Proc.devRef .tc main_v1) = W5 m ρ c (Proc.devRef .tc main_v1) := W6_of_ne m ρ c main_v1 (by decide)
theorem w6_v3 : W6 m ρ c (Proc.devRef .tc main_v3) = W5 m ρ c (Proc.devRef .tc main_v3) := W6_of_ne m ρ c main_v3 (by decide)
theorem w6_v12 : W6 m ρ c (Proc.devRef .tc main_v12) = W5 m ρ c (Proc.devRef .tc main_v12) := W6_of_ne m ρ c main_v12 (by decide)
theorem w6_arg11 : W6 m ρ c (Proc.devRef .tc main_arg11) = W5 m ρ c (Proc.devRef .tc main_arg11) := W6_of_ne m ρ c main_arg11 (by decide)
theorem w6_arg12 : W6 m ρ c (Proc.devRef .tc main_arg12) = W5 m ρ c (Proc.devRef .tc main_arg12) := W6_of_ne m ρ c main_arg12 (by decide)
theorem w6_arg13 : W6 m ρ c (Proc.devRef .tc main_arg13) = W5 m ρ c (Proc.devRef .tc main_arg13) := W6_of_ne m ρ c main_arg13 (by decide)

/-! ### After the fourth stretch: the mean of the third layer over the neighbours, the last bias as a row -/
theorem w7_v42 : W7 m ρ c (Proc.devRef .tc main_v42) = W6 m ρ c (Proc.devRef .tc main_v42) := by
  show StableHlo.after hostOps3 (W6 m ρ c) (Proc.devRef .tc main_v42) = _
  generalize W6 m ρ c = Wx
  after_results_simp <;> rfl
theorem w7_arg11 : W7 m ρ c (Proc.devRef .tc main_arg11) = W6 m ρ c (Proc.devRef .tc main_arg11) := by
  show StableHlo.after hostOps3 (W6 m ρ c) (Proc.devRef .tc main_arg11) = _
  generalize W6 m ρ c = Wx
  after_results_simp <;> rfl
theorem w7_arg12 : W7 m ρ c (Proc.devRef .tc main_arg12) = W6 m ρ c (Proc.devRef .tc main_arg12) := by
  show StableHlo.after hostOps3 (W6 m ρ c) (Proc.devRef .tc main_arg12) = _
  generalize W6 m ρ c = Wx
  after_results_simp <;> rfl
theorem w7_v54 : W7 m ρ c (Proc.devRef .tc main_v54) = agg64 (W6 m ρ c (Proc.devRef .tc main_v42)) (W6 m ρ c (Proc.devRef .tc main_v1)) (W6 m ρ c (Proc.devRef .tc main_v3)) (W6 m ρ c (Proc.devRef .tc main_v12)) := by
  show StableHlo.after hostOps3 (W6 m ρ c) (Proc.devRef .tc main_v54) = _
  generalize W6 m ρ c = Wx
  after_results_simp <;> rfl
theorem w7_v55 : W7 m ρ c (Proc.devRef .tc main_v55) = shapeCast S1x128 (W6 m ρ c (Proc.devRef .tc main_arg13)) shapeCasts_S128_S1x128 := by
  show StableHlo.after hostOps3 (W6 m ρ c) (Proc.devRef .tc main_v55) = _
  generalize W6 m ρ c = Wx
  after_results_simp <;> rfl

theorem w6_v1' : W6 m ρ c (Proc.devRef .tc main_v1) = edgeSrc (m ((c.tc : Thread nD τ).loc main_arg1)) := by rw [w6_v1, w5_v1, w4_v1']
theorem w6_v3' : W6 m ρ c (Proc.devRef .tc main_v3) = edgeDst (m ((c.tc : Thread nD τ).loc main_arg1)) := by rw [w6_v3, w5_v3, w4_v3']
theorem w6_v12' : W6 m ρ c (Proc.devRef .tc main_v12) = degInv (m ((c.tc : Thread nD τ).loc main_arg1)) := by rw [w6_v12, w5_v12, w4_v12']
theorem w6_arg11' : W6 m ρ c (Proc.devRef .tc main_arg11) = m ((c.tc : Thread nD τ).loc main_arg11) := by rw [w6_arg11, w5_arg11, w4_arg11']
theorem w6_arg12' : W6 m ρ c (Proc.devRef .tc main_arg12) = m ((c.tc : Thread nD τ).loc main_arg12) := by rw [w6_arg12, w5_arg12, w4_arg12']
theorem w6_arg13' : W6 m ρ c (Proc.devRef .tc main_arg13) = m ((c.tc : Thread nD τ).loc main_arg13) := by rw [w6_arg13, w5_arg13, w4_arg13']

/-! ### After call 3: the network's output -/

/-- THE RESULT BUFFER at the last boundary is the network of the argument arrays. -/
theorem w8_v56 : W8 m ρ c (Proc.devRef .tc main_v56) = h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W8_arr m ρ c 5).trans ((Tiles3.result (V7 m ρ) c).trans ?_)
  show Tiles3.layer3 (W7 m ρ c (Proc.devRef .tc main_v42)) (W7 m ρ c (Proc.devRef .tc main_v54)) (W7 m ρ c (Proc.devRef .tc main_arg11)) (W7 m ρ c (Proc.devRef .tc main_arg12)) (W7 m ρ c (Proc.devRef .tc main_v55)) = _
  rw [w7_v54, w7_v55, w7_v42, w7_arg11, w7_arg12, w6_v42, w6_v1', w6_v3', w6_v12', w6_arg11', w6_arg12', w6_arg13']
  rfl

end Cert.KernelIdeal.Whole

end
-- ==== Proof.LibDenseLayerHost.lean ====
/-
  A layer on all nodes, written in the kernel's terms (the bias as a vector cast to one row), is the expression the
  host spells: the product(s) by `dot_general`, the bias broadcast to one row and then down all rows, and the
  activation — the maximum with a broadcast zero, or 1 / (1 + exp (-x)) with a broadcast one. Entry by entry both are
  the activation of the layer's argument.
-/
import proofs.«107801_j1898375544952_1_alg».proof.Proof.LibDenseLayer

noncomputable section

namespace Cert.Gcn

open Idealize.ShloMosaic Idealize.ShloMosaic.ValueIdx

/-- A vector cast to one row reads, at (0, e), its entry e. -/
theorem cast_row_apply {B : ℕ} {α : Type} (b : (⟨1, ![B]⟩ : Shape).Idx → α) (hc : (⟨1, ![B]⟩ : Shape).ShapeCasts ⟨2, ![1, B]⟩) (e : Fin B) :
    shapeCast ⟨2, ![1, B]⟩ b hc (ix2 (0 : Fin 1) e) = b (ix1 e) :=
  shapeCast_apply b hc (ix2 (0 : Fin 1) e) (ix1 e) (by
    rw [Shape.rowMajor_val_two, Shape.rowMajor_val_one]; show e.val = 0 * B + e.val; omega)

/-- The f32 one broadcast to any shape is one everywhere. -/
theorem ones_apply {s : Shape} (hb : (⟨0, ![]⟩ : Shape).BroadcastsInDim s ![]) (i : s.Idx) :
    (broadcastInDim s ![] hb (constant (F := Ideal) ⟨0, ![]⟩ .f32 0x3F800000#32) : FVec Ideal s .f32) i = 1 := by
  rw [broadcastInDim_scalar_apply]
  exact Ideal.ofBits_one_f32

/-- The linear layer with the bias as a cast row is the host's product plus the bias broadcast in two steps. -/
theorem lin_layer_eq_host {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (b : FVec Ideal ⟨1, ![B]⟩ .f32)
    (hc : (⟨1, ![B]⟩ : Shape).ShapeCasts ⟨2, ![1, B]⟩)
    (h1 : (⟨1, ![B]⟩ : Shape).BroadcastsInDim ⟨2, ![1, B]⟩ ![1]) (h2 : (⟨2, ![1, B]⟩ : Shape).BroadcastsInDim ⟨2, ![A, B]⟩ ![0, 1]) :
    (fun i : (⟨2, ![A, B]⟩ : Shape).Idx => lin x w (fun e => shapeCast ⟨2, ![1, B]⟩ b hc (ix2 (0 : Fin 1) e)) (i 0) (i 1))
      = addf (Host.dotGeneral D none x w) (broadcastInDim ⟨2, ![A, B]⟩ ![0, 1] h2 (broadcastInDim ⟨2, ![1, B]⟩ ![1] h1 b)) := by
  funext i
  obtain ⟨p, e, rfl⟩ : ∃ (p : Fin A) (e : Fin B), i = ix2 p e := ⟨i 0, i 1, eq_ix2 i⟩
  rw [host_lin_apply D hD x w b h1 h2 p e]
  show lin x w (fun e => shapeCast ⟨2, ![1, B]⟩ b hc (ix2 (0 : Fin 1) e)) p e = _
  exact congrArg (fun f => lin x w f p e) (funext fun e => cast_row_apply b hc e)

/-- A rectified layer likewise. -/
theorem relu_layer_eq_host {A K B : ℕ} (D : DotDims ⟨2, ![A, K]⟩ ⟨2, ![K, B]⟩ ⟨2, ![A, B]⟩) (hD : D = DotDims.plain A K B)
    (h a : FVec Ideal ⟨2, ![A, K]⟩ .f32) (ws wn : FVec Ideal ⟨2, ![K, B]⟩ .f32) (b : FVec Ideal ⟨1, ![B]⟩ .f32)
    (hc : (⟨1, ![B]⟩ : Shape).ShapeCasts ⟨2, ![1, B]⟩)
    (h1 : (⟨1, ![B]⟩ : Shape).BroadcastsInDim ⟨2, ![1, B]⟩ ![1]) (h2 : (⟨2, ![1, B]⟩ : Shape).BroadcastsInDim ⟨2, ![A, B]⟩ ![0, 1])
    (hz : (⟨0, ![]⟩ : Shape).BroadcastsInDim ⟨2, ![A, B]⟩ ![]) :
    (fun i : (⟨2, ![A, B]⟩ : Shape).Idx => max (pre h a ws wn (fun e => shapeCast ⟨2, ![1, B]⟩ b hc (ix2 (0 : Fin 1) e)) (i 0) (i 1)) 0)
      = maximumf (addf (addf (Host.dotGeneral D none h ws) (Host.dotGeneral D none a wn))
          (broadcastInDim ⟨2, ![A, B]⟩ ![0, 1] h2 (broadcastInDim ⟨2, ![1, B]⟩ ![1] h1 b)))
        (broadcastInDim ⟨2, ![A, B]⟩ ![] hz (constant (F := Ideal) ⟨0, ![]⟩ .f32 0x00000000#32)) := by
  funext i
  obtain ⟨p, e, rfl⟩ : ∃ (p : Fin A) (e : Fin B), i = ix2 p e := ⟨i 0, i 1, eq_ix2 i⟩
  rw [host_relu_apply, host_pre_apply D hD h a ws wn b h1 h2 p e]
  show max (pre h a ws wn (fun e => shapeCast ⟨2, ![1, B]⟩ b hc (ix2 (0 : Fin 1) e)) p e) 0 = _
  exact congrArg (fun f => max (pre h a ws wn f p e) 0) (funext fun e => cast_row_apply b hc e)

/-- A layer through the logistic function likewise, the host spelling the function out. -/
theorem logistic_layer_eq_host {A K B : ℕ} (D : DotDims ⟨2, ![A, K]⟩ ⟨2, ![K, B]⟩ ⟨2, ![A, B]⟩) (hD : D = DotDims.plain A K B)
    (h a : FVec Ideal ⟨2, ![A, K]⟩ .f32) (ws wn : FVec Ideal ⟨2, ![K, B]⟩ .f32) (b : FVec Ideal ⟨1, ![B]⟩ .f32)
    (hc : (⟨1, ![B]⟩ : Shape).ShapeCasts ⟨2, ![1, B]⟩)
    (h1 : (⟨1, ![B]⟩ : Shape).BroadcastsInDim ⟨2, ![1, B]⟩ ![1]) (h2 : (⟨2, ![1, B]⟩ : Shape).BroadcastsInDim ⟨2, ![A, B]⟩ ![0, 1])
    (hz : (⟨0, ![]⟩ : Shape).BroadcastsInDim ⟨2, ![A, B]⟩ ![]) :
    (fun i : (⟨2, ![A, B]⟩ : Shape).Idx => Ideal.logistic (pre h a ws wn (fun e => shapeCast ⟨2, ![1, B]⟩ b hc (ix2 (0 : Fin 1) e)) (i 0) (i 1)))
      = Host.divf (broadcastInDim ⟨2, ![A, B]⟩ ![] hz (constant (F := Ideal) ⟨0, ![]⟩ .f32 0x3F800000#32))
          (addf (broadcastInDim ⟨2, ![A, B]⟩ ![] hz (constant (F := Ideal) ⟨0, ![]⟩ .f32 0x3F800000#32))
            (Host.exp (Host.negf (addf (addf (Host.dotGeneral D none h ws) (Host.dotGeneral D none a wn))
              (broadcastInDim ⟨2, ![A, B]⟩ ![0, 1] h2 (broadcastInDim ⟨2, ![1, B]⟩ ![1] h1 b)))))) := by
  funext i
  obtain ⟨p, e, rfl⟩ : ∃ (p : Fin A) (e : Fin B), i = ix2 p e := ⟨i 0, i 1, eq_ix2 i⟩
  rw [host_logistic_apply, host_pre_apply D hD h a ws wn b h1 h2 p e]
  show Ideal.logistic (pre h a ws wn (fun e => shapeCast ⟨2, ![1, B]⟩ b hc (ix2 (0 : Fin 1) e)) p e) = _
  exact congrArg (fun f => Ideal.logistic (pre h a ws wn f p e)) (funext fun e => cast_row_apply b hc e)

end Cert.Gcn

end
-- ==== Proof.Bridge.lean ====
/-
  The network the kernel computes is the network the reference computes.

  Stage by stage, as functions of the argument arrays: the first layer, then three times the mean over the neighbours
  and a dense layer. A layer in the kernel's terms is the host's expression (the products, the bias, the activation
  read entry by entry). The mean is where the two programs differ: the kernel multiplies the neighbour sums by the
  reciprocal of max(degree, 1), the reference divides them by max(degree, 1); the divisor is at least one, so the two
  agree on all the extended reals. The gather and the scatter-sum are the same operations of the same edge lists on
  both sides and are never opened.
-/
import proofs.«107801_j1898375544952_1_alg».proof.Proof.Gen.ReferenceIdeal.Read
import proofs.«107801_j1898375544952_1_alg».proof.Proof.Walk
import proofs.«107801_j1898375544952_1_alg».proof.Proof.LibDenseLayerHost

set_option maxRecDepth 16384
set_option maxHeartbeats 4000000

noncomputable section

namespace Cert.Bridge

open Idealize.ShloMosaic Idealize.ShloMosaic.ValueIdx
open Cert.ReferenceIdeal Cert.ReferenceIdeal.Read
open Cert.KernelIdeal.Whole (h0 a1 h1 a2 h2 a3 h3 agg16 agg32 agg64 degInv edgeSrc edgeDst)

variable (x0 : FVec Ideal S131072x16 .f32) (x1 : (⟨S2x2097152, .i32⟩ : BufTy).Contents (Elt Ideal)) (x3 : FVec Ideal S16x16 .f32) (x4 : FVec Ideal S16 .f32)
  (x5 x6 : FVec Ideal S16x32 .f32) (x7 : FVec Ideal S32 .f32) (x8 x9 : FVec Ideal S32x64 .f32) (x10 : FVec Ideal S64 .f32)
  (x11 x12 : FVec Ideal S64x128 .f32) (x13 : FVec Ideal S128 .f32)

/-- The first layer. -/
theorem h0_eq : h0 x0 x3 x4 = val_main_v3 (F := Ideal) x0 x3 x4 :=
  Cert.Gcn.lin_layer_eq_host dot_S131072x16_S16x16_S131072x16_1_0_0_1_n_n rfl x0 x3 x4 _ _ _

/-- The mean of the first layer over the neighbours: the product with the reciprocal is the quotient. -/
theorem a1_eq : a1 x0 x1 x3 x4 = val_main_v26 (F := Ideal) x0 x1 x3 x4 := by
  unfold Cert.KernelIdeal.Whole.a1
  rw [h0_eq]
  exact Cert.Gcn.sum_times_reciprocal_eq_quotient _ _ _ _ (Cert.Gcn.ones_apply _) (Cert.Gcn.ones_apply _) _ _

/-- The second layer. -/
theorem h1_eq : h1 x0 x1 x3 x4 x5 x6 x7 = val_main_v33 (F := Ideal) x0 x1 x3 x4 x5 x6 x7 := by
  unfold Cert.KernelIdeal.Whole.h1
  rw [h0_eq, a1_eq]
  exact Cert.Gcn.relu_layer_eq_host dot_S131072x16_S16x32_S131072x32_1_0_0_1_n_n rfl _ _ x5 x6 x7 _ _ _ _

/-- The mean of the second layer over the neighbours. -/
theorem a2_eq : a2 x0 x1 x3 x4 x5 x6 x7 = val_main_v56 (F := Ideal) x0 x1 x3 x4 x5 x6 x7 := by
  unfold Cert.KernelIdeal.Whole.a2
  rw [h1_eq]
  exact Cert.Gcn.sum_times_reciprocal_eq_quotient _ _ _ _ (Cert.Gcn.ones_apply _) (Cert.Gcn.ones_apply _) _ _

/-- The third layer. -/
theorem h2_eq : h2 x0 x1 x3 x4 x5 x6 x7 x8 x9 x10 = val_main_v63 (F := Ideal) x0 x1 x3 x4 x5 x6 x7 x8 x9 x10 := by
  unfold Cert.KernelIdeal.Whole.h2
  rw [h1_eq, a2_eq]
  exact Cert.Gcn.relu_layer_eq_host dot_S131072x32_S32x64_S131072x64_1_0_0_1_n_n rfl _ _ x8 x9 x10 _ _ _ _

/-- The mean of the third layer over the neighbours. -/
theorem a3_eq : a3 x0 x1 x3 x4 x5 x6 x7 x8 x9 x10 = val_main_v86 (F := Ideal) x0 x1 x3 x4 x5 x6 x7 x8 x9 x10 := by
  unfold Cert.KernelIdeal.Whole.a3
  rw [h2_eq]
  exact Cert.Gcn.sum_times_reciprocal_eq_quotient _ _ _ _ (Cert.Gcn.ones_apply _) (Cert.Gcn.ones_apply _) _ _

/-- THE NETWORK'S OUTPUT: the kernel's last layer, through the logistic function, is the reference's result. -/
theorem h3_eq : h3 x0 x1 x3 x4 x5 x6 x7 x8 x9 x10 x11 x12 x13 = val_main_v98 (F := Ideal) x0 x1 x3 x4 x5 x6 x7 x8 x9 x10 x11 x12 x13 := by
  unfold Cert.KernelIdeal.Whole.h3
  rw [h2_eq, a3_eq]
  exact Cert.Gcn.logistic_layer_eq_host dot_S131072x64_S64x128_S131072x128_1_0_0_1_n_n rfl _ _ x11 x12 x13 _ _ _ _

end Cert.Bridge

end
-- ==== Proof.lean ====
/-
  The idealized kernel and the idealized reference compute the same graph network on the extended reals.

  Both programs apply a linear layer and then three dense layers to the features of 131072 nodes; a dense layer adds,
  to the node's own features through the self weights, the MEAN of its in-neighbours' features through the neighbour
  weights, and a bias, and applies the rectifier (twice) or the logistic function (last). The kernel runs each layer as
  a Pallas call over 32 tiles of 4096 nodes and computes the neighbour means between the calls on the host; the
  reference is one host program.

  * Pallas calls (Tiles0 … Tiles3): a tile of a layer's result depends on the same rows of its inputs only, so each
    call's result array is one function of the arrays it is entered with, index by index; the matrix products into
    zero accumulators are plain sums and the changes of float format are the identity (LibDenseLayer).
  * The whole run (KernelRun, Walk): the result buffer at the end is the composition of the four layers and the three
    neighbour means of the argument arrays; the edge lists and reciprocal degrees are computed once and read unchanged.
  * The bridge (LibDenseLayerHost, Bridge): each layer is the host's expression entry by entry, the logistic function is by
    definition the 1 / (1 + exp (-x)) the host spells out, and the one real difference — the kernel multiplies the
    neighbour sums by 1 / max(degree, 1) where the reference divides by max(degree, 1) — is no difference because the
    divisor is at least one: off a zero divisor, x · (1 / y) = x / y on all the extended reals. The gather and the
    scatter-sum are the same operations on both sides and stay closed. Finiteness of the inputs is not used.

  The three frames are the generated ones (the reference's from its generated run). The claim that the idealized kernel
  is the kernel's sanctioned idealization is stated as `True`: the statement lists no rewritten operation.
-/
import proofs.«107801_j1898375544952_1_alg».proof.Defs
import proofs.«107801_j1898375544952_1_alg».proof.Proof.Gen.Kernel
import proofs.«107801_j1898375544952_1_alg».proof.Proof.Gen.Kernel.Skeleton
import proofs.«107801_j1898375544952_1_alg».proof.Proof.Gen.Kernel.Launch
import proofs.«107801_j1898375544952_1_alg».proof.Proof.Gen.Kernel.Points
import proofs.«107801_j1898375544952_1_alg».proof.Proof.Gen.Kernel.Frame
import proofs.«107801_j1898375544952_1_alg».proof.Proof.Gen.KernelIdeal
import proofs.«107801_j1898375544952_1_alg».proof.Proof.Gen.KernelIdeal.Skeleton
import proofs.«107801_j1898375544952_1_alg».proof.Proof.Gen.KernelIdeal.Launch
import proofs.«107801_j1898375544952_1_alg».proof.Proof.Gen.KernelIdeal.Points
import proofs.«107801_j1898375544952_1_alg».proof.Proof.Gen.KernelIdeal.Frame
import proofs.«107801_j1898375544952_1_alg».proof.Proof.Gen.ReferenceIdeal
import proofs.«107801_j1898375544952_1_alg».proof.Proof.Gen.Pre_finite_inputs
import proofs.«107801_j1898375544952_1_alg».proof.Proof.Gen.ReferenceIdeal.Run
import proofs.«107801_j1898375544952_1_alg».proof.Proof.Gen.ReferenceIdeal.Read
import proofs.«107801_j1898375544952_1_alg».proof.Proof.KernelRun
import proofs.«107801_j1898375544952_1_alg».proof.Proof.Walk
import proofs.«107801_j1898375544952_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network's output of those arguments in their
    result buffers: the kernel's by the walk through its segments, the reference's by its run and the bridge. -/
theorem algebraic : Cert.algebraic_KernelIdeal_ReferenceIdeal := by
  intro m ρ m' ρ' _ hagree
  refine ⟨fun c => Cert.KernelIdeal.Whole.h3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Whole.w8_v56 m ρ c), (h c).2⟩) (Cert.KernelIdeal.Whole.run_named m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v98_eq m' c).trans ?_
    obtain ⟨e0, e1, e2, e3, e4, e5, e6, e7, e8, e9, e10, e11, e12, e13⟩ := hagree c
    rw [e0, e1, e3, e4, e5, e6, e7, e8, e9, e10, e11, e12, e13]
    exact (Cert.Bridge.h3_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
